-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000 : Shape := ⟨1, ![1600000]⟩
abbrev S50000 : Shape := ⟨1, ![50000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x64 .f32) (main_arg1 : IVec S2x1600000 32) (main_arg2 : FVec F S1600000 .f32) (main_arg3 : IVec S50000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x64 : Shape := ⟨2, ![50000, 64]⟩
abbrev S2x1600000 : Shape := ⟨2, ![2, 1600000]⟩
abbrev S1600000 : Shape := ⟨1, ![1600000]⟩
abbrev S50000 : Shape := ⟨1, ![50000]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S5000x64 : Shape := ⟨2, ![5000, 64]⟩
abbrev S1600000x64 : Shape := ⟨2, ![1600000, 64]⟩
abbrev S1x64 : Shape := ⟨2, ![1, 64]⟩
abbrev S50000x1 : Shape := ⟨2, ![50000, 1]⟩
abbrev S5000x1 : Shape := ⟨2, ![5000, 1]⟩
abbrev S64x1 : Shape := ⟨2, ![64, 1]⟩

abbrev nBuf : Space → Nat
  | .hbm => 127
  | .vmem => 50
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000, .f32⟩
  | .hbm, ⟨3, _⟩ => ⟨S50000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S50000, .f32⟩
  | .hbm, ⟨47, _⟩ => ⟨S50000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S1600000x1, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S50000x64, .f32⟩
  | .hbm, ⟨62, _⟩ => ⟨S1600000x1, .i32⟩
  | .hbm, ⟨63, _⟩ => ⟨S50000x64, .f32⟩
  | .hbm, ⟨64, _⟩ => ⟨S1x64, .f32⟩
  | .hbm, ⟨65, _⟩ => ⟨S50000x1, .f32⟩
  | .hbm, ⟨66, _⟩ => ⟨S50000x64, .f32⟩
  | .hbm, ⟨67, _⟩ => ⟨S50000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x1, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S50000x64, .f32⟩
  | .hbm, ⟨82, _⟩ => ⟨S1600000x1, .i32⟩
  | .hbm, ⟨83, _⟩ => ⟨S50000x64, .f32⟩
  | .hbm, ⟨84, _⟩ => ⟨S1x64, .f32⟩
  | .hbm, ⟨85, _⟩ => ⟨S50000x1, .f32⟩
  | .hbm, ⟨86, _⟩ => ⟨S50000x64, .f32⟩
  | .hbm, ⟨87, _⟩ => ⟨S50000x64, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S1600000x1, .f32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S50000x64, .f32⟩
  | .hbm, ⟨102, _⟩ => ⟨S1600000x1, .i32⟩
  | .hbm, ⟨103, _⟩ => ⟨S50000x64, .f32⟩
  | .hbm, ⟨104, _⟩ => ⟨S1x64, .f32⟩
  | .hbm, ⟨105, _⟩ => ⟨S50000x1, .f32⟩
  | .hbm, ⟨106, _⟩ => ⟨S50000x64, .f32⟩
  | .hbm, ⟨107, _⟩ => ⟨S_, .f32⟩
  | .hbm, ⟨108, _⟩ => ⟨S50000, .f32⟩
  | .hbm, ⟨109, _⟩ => ⟨S_, .f32⟩
  | .hbm, ⟨110, _⟩ => ⟨S64, .f32⟩
  | .hbm, ⟨111, _⟩ => ⟨S50000x1, .i32⟩
  | .hbm, ⟨112, _⟩ => ⟨S64, .f32⟩
  | .hbm, ⟨113, _⟩ => ⟨S_, .f32⟩
  | .hbm, ⟨114, _⟩ => ⟨S64x64, .f32⟩
  | .hbm, ⟨115, _⟩ => ⟨S50000x1, .i32⟩
  | .hbm, ⟨116, _⟩ => ⟨S64x64, .f32⟩
  | .hbm, ⟨117, _⟩ => ⟨S_, .f32⟩
  | .hbm, ⟨118, _⟩ => ⟨S64, .f32⟩
  | .hbm, ⟨119, _⟩ => ⟨S64, .f32⟩
  | .hbm, ⟨120, _⟩ => ⟨S64x1, .f32⟩
  | .hbm, ⟨121, _⟩ => ⟨S64x64, .f32⟩
  | .hbm, ⟨122, _⟩ => ⟨S64x64, .f32⟩
  | .hbm, ⟨123, _⟩ => ⟨S1x64, .f32⟩
  | .hbm, ⟨124, _⟩ => ⟨S64x64, .f32⟩
  | .hbm, ⟨125, _⟩ => ⟨S1x64, .f32⟩
  | .hbm, ⟨126, _⟩ => ⟨S64x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x1, .f32⟩
  | .local _ .vmem, ⟨38, _⟩ => ⟨S5000x1, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S64x64, .f32⟩
  | .local _ .vmem, ⟨44, _⟩ => ⟨S1x64, .f32⟩
  | .local _ .vmem, ⟨45, _⟩ => ⟨S64x64, .f32⟩
  | .local _ .vmem, ⟨46, _⟩ => ⟨S64x64, .f32⟩
  | .local _ .vmem, ⟨47, _⟩ => ⟨S64x64, .f32⟩
  | .local _ .vmem, ⟨48, _⟩ => ⟨S1x64, .f32⟩
  | .local _ .vmem, ⟨49, _⟩ => ⟨S64x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_10 : Ref sig .tc := ⟨.hbm, 88, rfl⟩
abbrev main_v62 : Ref sig .tc := ⟨.hbm, 89, rfl⟩
abbrev main_v63 : Ref sig .tc := ⟨.hbm, 90, rfl⟩
abbrev main_c_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_13 : Ref sig .tc := ⟨.hbm, 107, rfl⟩
abbrev main_v78 : Ref sig .tc := ⟨.hbm, 108, rfl⟩
abbrev main_cst_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc7_stg0_0 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc7_sem0_0 : DmaSem sig := 46
abbrev cc7_sem1_0 : DmaSem sig := 47
abbrev cc7_sem2_0 : DmaSem sig := 48
abbrev cc7_sem3_0 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S64_S1x64 : S64.ShapeCasts S1x64
  shapeCasts_S50000_S50000x1 : S50000.ShapeCasts S50000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64 : S_.BroadcastsInDim S64 (![] : Fin 0 → Fin S64.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S64x64_S64x64 : S64x64.ShapeCasts S64x64
  broadcasts_S1x64_S64x64 : S1x64.Broadcasts S64x64
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x64_S64x64_S5000x64_1_0_0_1_n_n_wf : DotDims.WF S5000x64 S64x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x64_S64x64_1_0_0_1_n_n_wf : DotDims.WF S64x64 S64x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x64.size a ≤ S64x64.size a
  hwx6_0 : ∀ i : grid6.Coords, EltTy.bits .f32 = 32 ∨ (Rect.block (s := S64x64) S64x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x64.size a ≤ S64x64.size a
  hwx7_0 : ∀ i : grid7.Coords, EltTy.bits .f32 = 32 ∨ (Rect.block (s := S64x64) S64x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v89) S64x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S64x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v91) S64x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v92) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v93) S64x64.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000 : Shape := ⟨1, ![1600000]⟩
abbrev S50000 : Shape := ⟨1, ![50000]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S50000x1 : Shape := ⟨2, ![50000, 1]⟩
abbrev S1x64 : Shape := ⟨2, ![1, 64]⟩
abbrev S64x1 : Shape := ⟨2, ![64, 1]⟩

abbrev nBuf : Space → Nat
  | .hbm => 210
  | .vmem => 0
  | .smem => 0
  | _ => 0

abbrev hbmTy0_0 (i : Nat) : BufTy := match i % 128 with
  | 0 => ⟨S50000x64, .f32⟩
  | 1 => ⟨S2x1600000, .i32⟩
  | 2 => ⟨S1600000, .f32⟩
  | 3 => ⟨S50000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S_, .f32⟩
  | 19 => ⟨S50000, .f32⟩
  | 20 => ⟨S1600000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S50000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S50000x64, .f32⟩
  | 61 => ⟨S1600000x1, .i32⟩
  | 62 => ⟨S50000x64, .f32⟩
  | 63 => ⟨S50000, .f32⟩
  | 64 => ⟨S50000x1, .f32⟩
  | 65 => ⟨S50000x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S_, .f32⟩
  | 75 => ⟨S50000, .f32⟩
  | 76 => ⟨S1600000x1, .i32⟩
  | 77 => ⟨S50000, .f32⟩
  | 78 => ⟨S_, .f32⟩
  | 79 => ⟨S50000, .f32⟩
  | 80 => ⟨S50000, .f32⟩
  | 81 => ⟨S50000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S50000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x1, .f32⟩
  | 113 => ⟨S1600000x64, .f32⟩
  | 114 => ⟨S1600000x64, .f32⟩
  | 115 => ⟨S_, .f32⟩
  | 116 => ⟨S50000x64, .f32⟩
  | 117 => ⟨S1600000x1, .i32⟩
  | 118 => ⟨S50000x64, .f32⟩
  | 119 => ⟨S50000, .f32⟩
  | 120 => ⟨S50000x1, .f32⟩
  | 121 => ⟨S50000x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S50000, .f32⟩
  | 4 => ⟨S1600000x1, .i32⟩
  | 5 => ⟨S50000, .f32⟩
  | 6 => ⟨S_, .f32⟩
  | 7 => ⟨S50000, .f32⟩
  | 8 => ⟨S50000, .f32⟩
  | 9 => ⟨S50000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000, .f32⟩
  | 19 => ⟨S1600000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S1600000, .f32⟩
  | 30 => ⟨S50000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S1600000x1, .f32⟩
  | 41 => ⟨S1600000x64, .f32⟩
  | 42 => ⟨S1600000x64, .f32⟩
  | 43 => ⟨S_, .f32⟩
  | 44 => ⟨S50000x64, .f32⟩
  | 45 => ⟨S1600000x1, .i32⟩
  | 46 => ⟨S50000x64, .f32⟩
  | 47 => ⟨S50000, .f32⟩
  | 48 => ⟨S50000x1, .f32⟩
  | 49 => ⟨S50000x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S50000, .f32⟩
  | 57 => ⟨S_, .f32⟩
  | 58 => ⟨S64, .f32⟩
  | 59 => ⟨S50000x1, .i32⟩
  | 60 => ⟨S64, .f32⟩
  | 61 => ⟨S_, .f32⟩
  | 62 => ⟨S64x64, .f32⟩
  | 63 => ⟨S50000x1, .i32⟩
  | 64 => ⟨S64x64, .f32⟩
  | 65 => ⟨S_, .f32⟩
  | 66 => ⟨S64, .f32⟩
  | 67 => ⟨S64, .f32⟩
  | 68 => ⟨S64x1, .f32⟩
  | 69 => ⟨S64x64, .f32⟩
  | 70 => ⟨S64x64, .f32⟩
  | 71 => ⟨S64x64, .f32⟩
  | 72 => ⟨S1x64, .f32⟩
  | 73 => ⟨S64x64, .f32⟩
  | 74 => ⟨S64x64, .f32⟩
  | 75 => ⟨S_, .f32⟩
  | 76 => ⟨S64x64, .f32⟩
  | 77 => ⟨S64x64, .f32⟩
  | 78 => ⟨S64x64, .f32⟩
  | 79 => ⟨S1x64, .f32⟩
  | 80 => ⟨S64x64, .f32⟩
  | 81 => ⟨S64x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_8 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_11 : Ref sig .tc := ⟨.hbm, 92, rfl⟩
abbrev main_v63 : Ref sig .tc := ⟨.hbm, 93, rfl⟩
abbrev main_v64 : Ref sig .tc := ⟨.hbm, 94, rfl⟩
abbrev main_c_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call1_cst : Ref sig .tc := ⟨.hbm, 127, rfl⟩
abbrev main_call1_v0 : Ref sig .tc := ⟨.hbm, 128, rfl⟩
abbrev main_v93 : Ref sig .tc := ⟨.hbm, 129, rfl⟩
abbrev main_cst_16 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_17 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_18 : Ref sig .tc := ⟨.hbm, 138, rfl⟩
abbrev main_v100 : Ref sig .tc := ⟨.hbm, 139, rfl⟩
abbrev main_v101 : Ref sig .tc := ⟨.hbm, 140, rfl⟩
abbrev main_c_19 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_20 : Ref sig .tc := ⟨.hbm, 148, rfl⟩
abbrev main_v108 : Ref sig .tc := ⟨.hbm, 149, rfl⟩
abbrev main_v109 : Ref sig .tc := ⟨.hbm, 150, rfl⟩
abbrev main_c_21 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_22 : Ref sig .tc := ⟨.hbm, 159, rfl⟩
abbrev main_v117 : Ref sig .tc := ⟨.hbm, 160, rfl⟩
abbrev main_v118 : Ref sig .tc := ⟨.hbm, 161, rfl⟩
abbrev main_c_23 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_25 : Ref sig .tc := ⟨.hbm, 183, rfl⟩
abbrev main_v138 : Ref sig .tc := ⟨.hbm, 184, rfl⟩
abbrev main_cst_26 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_27 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_28 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_call2_cst : Ref sig .tc := ⟨.hbm, 203, rfl⟩
abbrev main_call2_v0 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x64_S64x64_1_0_0_1_n_n_wf : DotDims.WF S64x64 S64x64 S64x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf

class Facts : Prop extends Facts₀ where

variable [Facts]
-- ==== Proof.KernelRun.lean ====
/-
  The idealized kernel program's run, with the whole final memory named.

  @main is fourteen segments: stretches of host operations and eight kernel regions. The contents of
  the TensorCore's buffers at each segment boundary form a fold from the launch memory: a stretch of host
  operations applies them (`StableHlo.after`), a region replaces its arrays by what its write-backs leave.
  The last stage of the fold is `Gen.W14`. Here the launch theorem for a list of segments is applied once more
  with the post "every unscoped buffer of the final memory holds its `W14` contents", from which the result
  array and the untouched arguments are both read.
-/
import proofs.«173949_j61031485276242_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement
set_option backward.isDefEq.respectTransparency.types false in
/-- Every weakly fair execution of @main terminates without a fault, and in the final memory every unscoped
    buffer of every core holds the last stage of the fold of @main's segments over the launch memory. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The same run, keeping of the final memory the result array (at its stage of the fold) and the fourteen
    argument arrays (as launched: no segment writes one). -/
theorem run_result : θ_run defs (onTc (τ := τ) (main (F := F))) ⟨m, fun _ => 0, ρ⟩ (fun r => ∀ c : Dev nD,
      r.2.mem ((c.tc : Thread nD τ).loc main_v93) = W14 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v93 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)
    (run_fold m ρ)

end Cert.KernelIdeal.RunValue

end
-- ==== Proof.Fold.lean ====
/-
  The fold of @main's segments, read at the buffers the later segments consume.

  The buffer contents at each segment boundary are `Gen.W0` … `Gen.W14`: a stretch of host operations applies
  them, a region replaces its arrays by what it leaves. A buffer that a segment does not write keeps its contents
  across it; this module has the tactic that shows a stretch of host operations does not write a given buffer, and
  names the fourteen argument arrays at the launch as the reference program's functions take them.
-/
import proofs.«173949_j61031485276242_1_alg».proof.Proof.Gen.KernelIdeal.Frame
import proofs.«173949_j61031485276242_1_alg».proof.Proof.Gen.ReferenceIdeal.Read
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem

/-- No operation of the named stretch writes the buffer at hand: each operation's one result buffer is another. -/
macro "not_written " ops:ident : tactic => `(tactic|
  (refine List.forall_iff_forall_mem.mp ?_
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

variable (m : (ℓ : Loc nD τ sig) → Buf (Elt Ideal) ℓ) (c : Dev nD)

/-- Argument 0 as launched. -/
abbrev X0 : (⟨Cert.ReferenceIdeal.S50000x64, .f32⟩ : BufTy).Contents (Elt Ideal) := m ((c : Thread nD τ).loc main_arg0)
/-- Argument 1 as launched. -/
abbrev X1 : (⟨Cert.ReferenceIdeal.S2x1600000, .i32⟩ : BufTy).Contents (Elt Ideal) := m ((c : Thread nD τ).loc main_arg1)
/-- Argument 2 as launched. -/
abbrev X2 : (⟨Cert.ReferenceIdeal.S1600000, .f32⟩ : BufTy).Contents (Elt Ideal) := m ((c : Thread nD τ).loc main_arg2)
/-- Argument 3 as launched. -/
abbrev X3 : (⟨Cert.ReferenceIdeal.S50000, .i32⟩ : BufTy).Contents (Elt Ideal) := m ((c : Thread nD τ).loc main_arg3)
/-- Argument 4 as launched. -/
abbrev X4 : (⟨Cert.ReferenceIdeal.S64x64, .f32⟩ : BufTy).Contents (Elt Ideal) := m ((c : Thread nD τ).loc main_arg4)
/-- Argument 5 as launched. -/
abbrev X5 : (⟨Cert.ReferenceIdeal.S64, .f32⟩ : BufTy).Contents (Elt Ideal) := m ((c : Thread nD τ).loc main_arg5)
/-- Argument 6 as launched. -/
abbrev X6 : (⟨Cert.ReferenceIdeal.S64x64, .f32⟩ : BufTy).Contents (Elt Ideal) := m ((c : Thread nD τ).loc main_arg6)
/-- Argument 7 as launched. -/
abbrev X7 : (⟨Cert.ReferenceIdeal.S64, .f32⟩ : BufTy).Contents (Elt Ideal) := m ((c : Thread nD τ).loc main_arg7)
/-- Argument 8 as launched. -/
abbrev X8 : (⟨Cert.ReferenceIdeal.S64x64, .f32⟩ : BufTy).Contents (Elt Ideal) := m ((c : Thread nD τ).loc main_arg8)
/-- Argument 9 as launched. -/
abbrev X9 : (⟨Cert.ReferenceIdeal.S64, .f32⟩ : BufTy).Contents (Elt Ideal) := m ((c : Thread nD τ).loc main_arg9)
/-- Argument 10 as launched. -/
abbrev X10 : (⟨Cert.ReferenceIdeal.S64x64, .f32⟩ : BufTy).Contents (Elt Ideal) := m ((c : Thread nD τ).loc main_arg10)
/-- Argument 11 as launched. -/
abbrev X11 : (⟨Cert.ReferenceIdeal.S64, .f32⟩ : BufTy).Contents (Elt Ideal) := m ((c : Thread nD τ).loc main_arg11)
/-- Argument 12 as launched. -/
abbrev X12 : (⟨Cert.ReferenceIdeal.S64x64, .f32⟩ : BufTy).Contents (Elt Ideal) := m ((c : Thread nD τ).loc main_arg12)
/-- Argument 13 as launched. -/
abbrev X13 : (⟨Cert.ReferenceIdeal.S64, .f32⟩ : BufTy).Contents (Elt Ideal) := m ((c : Thread nD τ).loc main_arg13)

end Cert.KernelIdeal.Fold

end
-- ==== Proof.Spec.lean ====
/-
  The whole-array functions the eight kernel regions compute, index by index over the extended reals.

  `proj X W` is the product of a 50000 × 64 array with 64 × 64 weights; `finish A P s b` adds to the aggregate
  `A` the projection `P` scaled row by row by the column `s`, then the bias row `b`; `finishRelu` is its maximum
  with zero; `pooled X W b` is a 64 × 64 product plus a bias row and `pooledRelu` its maximum with zero.
-/
import proofs.«173949_j61031485276242_1_alg».proof.KernelIdeal
import Idealize.ShloMosaic.PureOps.Ideal.Laws
import Idealize.ShloMosaic.Lib.ValueIdx

noncomputable section

namespace Cert.KernelIdeal.Spec

open Cert.KernelIdeal Idealize.ShloMosaic Idealize.ShloMosaic.ValueIdx

/-- An array of extended reals of a stated shape, named as such: a buffer's contents read as a function on the
    shape's indices. -/
abbrev arr {S : Shape} (f : S.Idx → EReal) : S.Idx → EReal := f

/-- The zero the bodies compare with, as it is printed. -/
abbrev z32 : EReal := Ideal.ofBits .f32 0x00000000#32

/-- Rows of `X` against columns of `W`. -/
def proj (X : S50000x64.Idx → EReal) (W : S64x64.Idx → EReal) : S50000x64.Idx → EReal :=
  fun i => ∑ k : Fin 64, X (ix2 (i 0) k) * W (ix2 k (i 1))

theorem proj_apply (X : S50000x64.Idx → EReal) (W : S64x64.Idx → EReal) (p : Fin 50000) (q : Fin 64) :
    proj X W (ix2 p q) = ∑ k : Fin 64, X (ix2 p k) * W (ix2 k q) := rfl

/-- Aggregate plus projection times the row's scale, plus the bias row. -/
def finish (A P : S50000x64.Idx → EReal) (s : S50000x1.Idx → EReal) (b : S1x64.Idx → EReal) : S50000x64.Idx → EReal :=
  fun i => (A i + P i * s (ix2 (i 0) (0 : Fin 1))) + b (ix2 (0 : Fin 1) (i 1))

theorem finish_apply (A P : S50000x64.Idx → EReal) (s : S50000x1.Idx → EReal) (b : S1x64.Idx → EReal) (p : Fin 50000) (q : Fin 64) :
    finish A P s b (ix2 p q) = (A (ix2 p q) + P (ix2 p q) * s (ix2 p (0 : Fin 1))) + b (ix2 (0 : Fin 1) q) := rfl

/-- The same followed by the maximum with zero. -/
def finishRelu (A P : S50000x64.Idx → EReal) (s : S50000x1.Idx → EReal) (b : S1x64.Idx → EReal) : S50000x64.Idx → EReal :=
  fun i => max (finish A P s b i) z32

theorem finishRelu_apply (A P : S50000x64.Idx → EReal) (s : S50000x1.Idx → EReal) (b : S1x64.Idx → EReal) (p : Fin 50000) (q : Fin 64) :
    finishRelu A P s b (ix2 p q) = max ((A (ix2 p q) + P (ix2 p q) * s (ix2 p (0 : Fin 1))) + b (ix2 (0 : Fin 1) q)) z32 := rfl

/-- A 64 × 64 product plus the bias row. -/
def pooled (X W : S64x64.Idx → EReal) (b : S1x64.Idx → EReal) : S64x64.Idx → EReal :=
  fun i => (∑ k : Fin 64, X (ix2 (i 0) k) * W (ix2 k (i 1))) + b (ix2 (0 : Fin 1) (i 1))

theorem pooled_apply (X W : S64x64.Idx → EReal) (b : S1x64.Idx → EReal) (p q : Fin 64) :
    pooled X W b (ix2 p q) = (∑ k : Fin 64, X (ix2 p k) * W (ix2 k q)) + b (ix2 (0 : Fin 1) q) := rfl

/-- The same followed by the maximum with zero. -/
def pooledRelu (X W : S64x64.Idx → EReal) (b : S1x64.Idx → EReal) : S64x64.Idx → EReal :=
  fun i => max (pooled X W b i) z32

theorem pooledRelu_apply (X W : S64x64.Idx → EReal) (b : S1x64.Idx → EReal) (p q : Fin 64) :
    pooledRelu X W b (ix2 p q) = max ((∑ k : Fin 64, X (ix2 p k) * W (ix2 k q)) + b (ix2 (0 : Fin 1) q)) z32 := rfl

end Cert.KernelIdeal.Spec

end
-- ==== Proof.Edges.lean ====
/-
  The edge quantities, computed once before the first region.

  The first stretch of host operations splits the edge list into sources and targets, accumulates the edge
  weights into the target degrees, adds one, takes the reciprocal square root, gathers it at both ends of every
  edge and multiplies: the normalised edge weight. It also squares the reciprocal square root (the self-loop
  scale). The reference program does the same operations in the same order (it repeats them in every layer), so
  each of these buffers holds the reference's stage function of the arguments; and none of the later segments
  writes them.
-/
import proofs.«173949_j61031485276242_1_alg».proof.Proof.Fold
import proofs.«173949_j61031485276242_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Stages

open Cert.KernelIdeal Cert.KernelIdeal.Gen Cert.KernelIdeal.Spec Cert.KernelIdeal.Fold
open Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## After the first stretch of host operations -/

set_option maxHeartbeats 2000000 in
theorem W1_v1 : W1 m ρ c (Proc.devRef .tc main_v1) = val_main_v1 (F := Ideal) (X1 m c) := by
  show StableHlo.after hostOps0 (W0 m ρ c) (Proc.devRef .tc main_v1) = _
  after_results_simp
  rfl

set_option maxHeartbeats 2000000 in
theorem W1_v3 : W1 m ρ c (Proc.devRef .tc main_v3) = val_main_v3 (F := Ideal) (X1 m c) := by
  show StableHlo.after hostOps0 (W0 m ρ c) (Proc.devRef .tc main_v3) = _
  after_results_simp
  rfl

set_option maxHeartbeats 2000000 in
/-- The normalised edge weights. -/
theorem W1_v25 : W1 m ρ c (Proc.devRef .tc main_v25) = val_main_v25 (F := Ideal) (X1 m c) (X2 m c) := by
  show StableHlo.after hostOps0 (W0 m ρ c) (Proc.devRef .tc main_v25) = _
  after_results_simp
  rfl

set_option maxHeartbeats 2000000 in
/-- The self-loop scale: the squared reciprocal square root of the degree. -/
theorem W1_v26 : W1 m ρ c (Proc.devRef .tc main_v26) = val_main_v40 (F := Ideal) (X1 m c) (X2 m c) := by
  show StableHlo.after hostOps0 (W0 m ρ c) (Proc.devRef .tc main_v26) = _
  after_results_simp
  rfl

/-! ## The reference's repeated copies are the same functions -/

theorem norm_copy2 (x1 : (⟨Cert.ReferenceIdeal.S2x1600000, .i32⟩ : BufTy).Contents (Elt Ideal)) (x2 : (⟨Cert.ReferenceIdeal.S1600000, .f32⟩ : BufTy).Contents (Elt Ideal)) :
    val_main_v70 (F := Ideal) x1 x2 = val_main_v25 (F := Ideal) x1 x2 := rfl
theorem norm_copy3 (x1 : (⟨Cert.ReferenceIdeal.S2x1600000, .i32⟩ : BufTy).Contents (Elt Ideal)) (x2 : (⟨Cert.ReferenceIdeal.S1600000, .f32⟩ : BufTy).Contents (Elt Ideal)) :
    val_main_v115 (F := Ideal) x1 x2 = val_main_v25 (F := Ideal) x1 x2 := rfl
theorem scale_copy2 (x1 : (⟨Cert.ReferenceIdeal.S2x1600000, .i32⟩ : BufTy).Contents (Elt Ideal)) (x2 : (⟨Cert.ReferenceIdeal.S1600000, .f32⟩ : BufTy).Contents (Elt Ideal)) :
    val_main_v85 (F := Ideal) x1 x2 = val_main_v40 (F := Ideal) x1 x2 := rfl
theorem scale_copy3 (x1 : (⟨Cert.ReferenceIdeal.S2x1600000, .i32⟩ : BufTy).Contents (Elt Ideal)) (x2 : (⟨Cert.ReferenceIdeal.S1600000, .f32⟩ : BufTy).Contents (Elt Ideal)) :
    val_main_v130 (F := Ideal) x1 x2 = val_main_v40 (F := Ideal) x1 x2 := rfl

/-! ## The same buffers at the entry of each later stretch of host operations -/

theorem W2_v1 : W2 m ρ c (Proc.devRef .tc main_v1) = val_main_v1 (F := Ideal) (X1 m c) :=
  (W2_of_ne m ρ c main_v1 (by decide)).trans (W1_v1 m ρ c)
theorem W2_v3 : W2 m ρ c (Proc.devRef .tc main_v3) = val_main_v3 (F := Ideal) (X1 m c) :=
  (W2_of_ne m ρ c main_v3 (by decide)).trans (W1_v3 m ρ c)
theorem W2_v25 : W2 m ρ c (Proc.devRef .tc main_v25) = val_main_v25 (F := Ideal) (X1 m c) (X2 m c) :=
  (W2_of_ne m ρ c main_v25 (by decide)).trans (W1_v25 m ρ c)
theorem W2_v26 : W2 m ρ c (Proc.devRef .tc main_v26) = val_main_v40 (F := Ideal) (X1 m c) (X2 m c) :=
  (W2_of_ne m ρ c main_v26 (by decide)).trans (W1_v26 m ρ c)

theorem W5_v1 : W5 m ρ c (Proc.devRef .tc main_v1) = val_main_v1 (F := Ideal) (X1 m c) :=
  (W5_of_ne m ρ c main_v1 (by decide)).trans ((W4_of_ne m ρ c main_v1 (by decide)).trans ((StableHlo.after_of_forall_not_mem (b := Proc.devRef .tc main_v1) _ _ (by not_written hostOps1)).trans ((W2_of_ne m ρ c main_v1 (by decide)).trans (W1_v1 m ρ c))))
theorem W5_v3 : W5 m ρ c (Proc.devRef .tc main_v3) = val_main_v3 (F := Ideal) (X1 m c) :=
  (W5_of_ne m ρ c main_v3 (by decide)).trans ((W4_of_ne m ρ c main_v3 (by decide)).trans ((StableHlo.after_of_forall_not_mem (b := Proc.devRef .tc main_v3) _ _ (by not_written hostOps1)).trans ((W2_of_ne m ρ c main_v3 (by decide)).trans (W1_v3 m ρ c))))
theorem W5_v25 : W5 m ρ c (Proc.devRef .tc main_v25) = val_main_v25 (F := Ideal) (X1 m c) (X2 m c) :=
  (W5_of_ne m ρ c main_v25 (by decide)).trans ((W4_of_ne m ρ c main_v25 (by decide)).trans ((StableHlo.after_of_forall_not_mem (b := Proc.devRef .tc main_v25) _ _ (by not_written hostOps1)).trans ((W2_of_ne m ρ c main_v25 (by decide)).trans (W1_v25 m ρ c))))
theorem W5_v26 : W5 m ρ c (Proc.devRef .tc main_v26) = val_main_v40 (F := Ideal) (X1 m c) (X2 m c) :=
  (W5_of_ne m ρ c main_v26 (by decide)).trans ((W4_of_ne m ρ c main_v26 (by decide)).trans ((StableHlo.after_of_forall_not_mem (b := Proc.devRef .tc main_v26) _ _ (by not_written hostOps1)).trans ((W2_of_ne m ρ c main_v26 (by decide)).trans (W1_v26 m ρ c))))

theorem W8_v1 : W8 m ρ c (Proc.devRef .tc main_v1) = val_main_v1 (F := Ideal) (X1 m c) :=
  (W8_of_ne m ρ c main_v1 (by decide)).trans ((W7_of_ne m ρ c main_v1 (by decide)).trans ((StableHlo.after_of_forall_not_mem (b := Proc.devRef .tc main_v1) _ _ (by not_written hostOps3)).trans ((W5_of_ne m ρ c main_v1 (by decide)).trans ((W4_of_ne m ρ c main_v1 (by decide)).trans ((StableHlo.after_of_forall_not_mem (b := Proc.devRef .tc main_v1) _ _ (by not_written hostOps1)).trans ((W2_of_ne m ρ c main_v1 (by decide)).trans (W1_v1 m ρ c)))))))
theorem W8_v3 : W8 m ρ c (Proc.devRef .tc main_v3) = val_main_v3 (F := Ideal) (X1 m c) :=
  (W8_of_ne m ρ c main_v3 (by decide)).trans ((W7_of_ne m ρ c main_v3 (by decide)).trans ((StableHlo.after_of_forall_not_mem (b := Proc.devRef .tc main_v3) _ _ (by not_written hostOps3)).trans ((W5_of_ne m ρ c main_v3 (by decide)).trans ((W4_of_ne m ρ c main_v3 (by decide)).trans ((StableHlo.after_of_forall_not_mem (b := Proc.devRef .tc main_v3) _ _ (by not_written hostOps1)).trans ((W2_of_ne m ρ c main_v3 (by decide)).trans (W1_v3 m ρ c)))))))
theorem W8_v25 : W8 m ρ c (Proc.devRef .tc main_v25) = val_main_v25 (F := Ideal) (X1 m c) (X2 m c) :=
  (W8_of_ne m ρ c main_v25 (by decide)).trans ((W7_of_ne m ρ c main_v25 (by decide)).trans ((StableHlo.after_of_forall_not_mem (b := Proc.devRef .tc main_v25) _ _ (by not_written hostOps3)).trans ((W5_of_ne m ρ c main_v25 (by decide)).trans ((W4_of_ne m ρ c main_v25 (by decide)).trans ((StableHlo.after_of_forall_not_mem (b := Proc.devRef .tc main_v25) _ _ (by not_written hostOps1)).trans ((W2_of_ne m ρ c main_v25 (by decide)).trans (W1_v25 m ρ c)))))))
theorem W8_v26 : W8 m ρ c (Proc.devRef .tc main_v26) = val_main_v40 (F := Ideal) (X1 m c) (X2 m c) :=
  (W8_of_ne m ρ c main_v26 (by decide)).trans ((W7_of_ne m ρ c main_v26 (by decide)).trans ((StableHlo.after_of_forall_not_mem (b := Proc.devRef .tc main_v26) _ _ (by not_written hostOps3)).trans ((W5_of_ne m ρ c main_v26 (by decide)).trans ((W4_of_ne m ρ c main_v26 (by decide)).trans ((StableHlo.after_of_forall_not_mem (b := Proc.devRef .tc main_v26) _ _ (by not_written hostOps1)).trans ((W2_of_ne m ρ c main_v26 (by decide)).trans (W1_v26 m ρ c)))))))

end Cert.KernelIdeal.Stages

end
-- ==== Proof.LibPlainDot.lean ====
/-
  A matrix product with the plain dimension numbers — an [M, K] operand against a [K, N] operand, contracting the
  left operand's second axis with the right operand's first, no batch axis — read at one entry of the result.
  Over the extended reals both the matrix unit's product into a zero accumulator and the host's `dot_general` are,
  at row `p` and column `q`, the sum over `k : Fin K` of `lhs (p, k) * rhs (k, q)`: the contraction index, a
  one-coordinate index of the contracted shape, is re-indexed by its coordinate. Generic in `M`, `K`, `N`.
-/
import Idealize.ShloMosaic.PureOps.Ideal.Laws
import Idealize.ShloMosaic.Lib.ValueIdx

noncomputable section

namespace LibPlainDot

open Idealize.ShloMosaic Idealize.ShloMosaic.ValueIdx

variable {M K N : Nat}

/-- The contraction index whose one coordinate is `k`. -/
abbrev kIdx (k : Fin K) : (DotDims.plain M K N).contr.Idx :=
  (contrEquiv1 (DotDims.plain M K N) K rfl rfl).symm k

/-- The left operand is read at row `p`, column `k`. -/
theorem lhsIdx_plain (p : Fin M) (q : Fin N) (k : Fin K) :
    (DotDims.plain M K N).lhsIdx (ix2 p q) (kIdx k) = ix2 p k := by
  funext a
  apply Fin.ext
  match a with
  | ⟨0, _⟩ => rfl
  | ⟨1, _⟩ =>
    exact ((DotDims.plain M K N).lhsIdx_val_of_single (cl := (1 : Fin 2)) rfl (ix2 p q) (kIdx k)).trans
      (contrEquiv1_symm_val (DotDims.plain M K N) K rfl rfl k)

/-- The right operand is read at row `k`, column `q`. -/
theorem rhsIdx_plain (p : Fin M) (q : Fin N) (k : Fin K) :
    (DotDims.plain M K N).rhsIdx (ix2 p q) (kIdx k) = ix2 k q := by
  funext a
  apply Fin.ext
  match a with
  | ⟨0, _⟩ =>
    exact ((DotDims.plain M K N).rhsIdx_val_of_single (cr := (0 : Fin 2)) rfl (ix2 p q) (kIdx k)).trans
      (contrEquiv1_symm_val (DotDims.plain M K N) K rfl rfl k)
  | ⟨1, _⟩ => rfl

/-- The sum over the contracted shape is the sum over `k : Fin K` of the row entry times the column entry. -/
theorem sum_plain (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_plain p q k, rhsIdx_plain p q k]

/-- The matrix unit's product into the zero accumulator, at row `p` and column `q`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (sum_plain lhs rhs p q)

/-- The host's `dot_general`, at row `p` and column `q`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (sum_plain lhs rhs p q)

end LibPlainDot

end
-- ==== Proof.LibRowOps.lean ====
/-
  Row-wise operations of a matrix read at an entry, generic in the extents a (rows) and b (columns).

  * A vector [a] cast to a column [a, 1] reads, at (p, u), the vector's entry p.
  * A column [a, 1] broadcast to [a, b] reads, at (p, q), the column's entry p.
  * The sum of an [a, b] matrix along its second axis (a lane reduction from the zero accumulator), over the
    extended reals, is at p the sum over k of the entries (p, k).
-/
import Idealize.ShloMosaic.PureOps.Ideal.Laws
import Idealize.ShloMosaic.Lib.Pipeline.Value
import Idealize.ShloMosaic.Lib.ValueIdx

noncomputable section

namespace LibRowOps

open Idealize.ShloMosaic Idealize.ShloMosaic.ValueIdx

variable {α : Type}

/-- An [a] array cast to [a, 1] reads, at (p, u), the operand at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along the second axis from the zero accumulator, at row p. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext ax
  apply Fin.ext
  match ax with
  | ⟨0, _⟩ => rfl
  | ⟨1, _⟩ => rfl

end LibRowOps

end
-- ==== Proof.Payloads.lean ====
/-
  The arithmetic of the eight kernel bodies, read at one entry over the extended reals.

  Three kinds of body occur. The projection bodies multiply a block of 5000 rows by the 64 × 64 weights on the
  matrix unit, into a zero accumulator: the entry (p, q) is the sum over k of x (p, k) · w (k, q) (the narrowing of
  the operands to bf16 is the identity on the extended reals). The finishing bodies add to the aggregated block the
  projected block scaled row by row and then the bias row, and, in the first two layers, take the maximum with
  zero. The two pooled-layer bodies are a 64 × 64 product plus a bias row, the first followed by the maximum with zero.
-/
import proofs.«173949_j61031485276242_1_alg».proof.Proof.Gen.KernelIdeal.Skeleton
import proofs.«173949_j61031485276242_1_alg».proof.Proof.Spec
import proofs.«173949_j61031485276242_1_alg».proof.Proof.LibPlainDot
import proofs.«173949_j61031485276242_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Cert.KernelIdeal.Spec Idealize.ShloMosaic Idealize.ShloMosaic.ValueIdx

/-! ## The projections: a row block times the weights -/

theorem proj0_apply (x : Vec Ideal S5000x64 .f32) (w : Vec Ideal S64x64 .f32) (p : Fin 5000) (q : Fin 64) :
    k0_pay1 (F := Ideal) x w (ix2 p q) = ∑ k : Fin 64, x (ix2 p k) * w (ix2 k q) := by
  unfold k0_pay1
  exact LibPlainDot.matmul_zero_apply (M := 5000) (K := 64) (N := 64) none x w p q

theorem proj2_apply (x : Vec Ideal S5000x64 .f32) (w : Vec Ideal S64x64 .f32) (p : Fin 5000) (q : Fin 64) :
    k2_pay1 (F := Ideal) x w (ix2 p q) = ∑ k : Fin 64, x (ix2 p k) * w (ix2 k q) := by
  unfold k2_pay1
  rw [shapeCast_self]
  exact LibPlainDot.matmul_zero_apply (M := 5000) (K := 64) (N := 64) none x w p q

theorem proj4_apply (x : Vec Ideal S5000x64 .f32) (w : Vec Ideal S64x64 .f32) (p : Fin 5000) (q : Fin 64) :
    k4_pay1 (F := Ideal) x w (ix2 p q) = ∑ k : Fin 64, x (ix2 p k) * w (ix2 k q) := by
  unfold k4_pay1
  rw [shapeCast_self]
  exact LibPlainDot.matmul_zero_apply (M := 5000) (K := 64) (N := 64) none x w p q

/-! ## The finishing step: aggregate + projection · row scale + bias, then the maximum with zero -/

theorem finish1_apply (agg xw : Vec Ideal S5000x64 .f32) (sc : Vec Ideal S5000x1 .f32) (b : Vec Ideal S1x64 .f32)
    (p : Fin 5000) (q : Fin 64) :
    k1_pay1 (F := Ideal) agg xw sc b (ix2 p q)
      = max ((agg (ix2 p q) + xw (ix2 p q) * sc (ix2 p (0 : Fin 1))) + b (ix2 (0 : Fin 1) q)) z32 := by
  unfold k1_pay1
  simp only [shapeCast_self]
  rw [maximumf_apply, addf_apply, addf_apply, mulf_apply, broadcast_apply,
    LibRowOps.broadcastTo_a1_ab_apply (a := 5000) (b := 64) sc _ p q, broadcastTo_1b_ab_apply (a := 5000) (b := 64) b _ p q]
  rfl

theorem finish3_apply (agg xw : Vec Ideal S5000x64 .f32) (sc : Vec Ideal S5000x1 .f32) (b : Vec Ideal S1x64 .f32)
    (p : Fin 5000) (q : Fin 64) :
    k3_pay1 (F := Ideal) agg xw sc b (ix2 p q)
      = max ((agg (ix2 p q) + xw (ix2 p q) * sc (ix2 p (0 : Fin 1))) + b (ix2 (0 : Fin 1) q)) z32 := by
  unfold k3_pay1
  simp only [shapeCast_self]
  rw [maximumf_apply, addf_apply, addf_apply, mulf_apply, broadcast_apply,
    LibRowOps.broadcastTo_a1_ab_apply (a := 5000) (b := 64) sc _ p q, broadcastTo_1b_ab_apply (a := 5000) (b := 64) b _ p q]
  rfl

theorem finish5_apply (agg xw : Vec Ideal S5000x64 .f32) (sc : Vec Ideal S5000x1 .f32) (b : Vec Ideal S1x64 .f32)
    (p : Fin 5000) (q : Fin 64) :
    k5_pay1 (F := Ideal) agg xw sc b (ix2 p q)
      = (agg (ix2 p q) + xw (ix2 p q) * sc (ix2 p (0 : Fin 1))) + b (ix2 (0 : Fin 1) q) := by
  unfold k5_pay1
  simp only [shapeCast_self]
  rw [addf_apply, addf_apply, mulf_apply,
    LibRowOps.broadcastTo_a1_ab_apply (a := 5000) (b := 64) sc _ p q, broadcastTo_1b_ab_apply (a := 5000) (b := 64) b _ p q]

/-! ## The pooled layers: a 64 × 64 product plus the bias row -/

theorem pooled6_apply (x w : Vec Ideal S64x64 .f32) (b : Vec Ideal S1x64 .f32) (p : Fin 64) (q : Fin 64) :
    k6_pay1 (F := Ideal) x w b (ix2 p q)
      = max ((∑ k : Fin 64, x (ix2 p k) * w (ix2 k q)) + b (ix2 (0 : Fin 1) q)) z32 := by
  unfold k6_pay1
  simp only [shapeCast_self]
  rw [maximumf_apply, addf_apply, broadcast_apply, broadcastTo_1b_ab_apply (a := 64) (b := 64) b _ p q]
  exact congrArg (fun s => max (s + b (ix2 (0 : Fin 1) q)) z32)
    (LibPlainDot.matmul_zero_apply (M := 64) (K := 64) (N := 64) none x w p q)

theorem pooled7_apply (x w : Vec Ideal S64x64 .f32) (b : Vec Ideal S1x64 .f32) (p : Fin 64) (q : Fin 64) :
    k7_pay1 (F := Ideal) x w b (ix2 p q)
      = (∑ k : Fin 64, x (ix2 p k) * w (ix2 k q)) + b (ix2 (0 : Fin 1) q) := by
  unfold k7_pay1
  simp only [shapeCast_self]
  rw [addf_apply, broadcastTo_1b_ab_apply (a := 64) (b := 64) b _ p q]
  exact congrArg (fun s => s + b (ix2 (0 : Fin 1) q))
    (LibPlainDot.matmul_zero_apply (M := 64) (K := 64) (N := 64) none x w p q)

end Cert.KernelIdeal.Payloads

end
-- ==== Proof.Region0.lean ====
/-
  Region 0: a projection. The grid has ten points; point t stages rows 5000·t … 5000·t + 4999 of the left array
  and the whole 64 × 64 weights, and writes back rows 5000·t … 5000·t + 4999 of the product. Each written block is
  the restriction of the whole product to its rows, and the ten blocks cover the 50000 rows, so the array the
  region leaves is the product of the arrays it found.
-/
import proofs.«173949_j61031485276242_1_alg».proof.Proof.Gen.KernelIdeal.Frame
import proofs.«173949_j61031485276242_1_alg».proof.Proof.Payloads
import proofs.«173949_j61031485276242_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Spec

theorem hz0 : (![0, 0] : Fin 2 → Nat) = fun _ => 0 := funext fun a => by fin_cases a <;> rfl

/-- The printed index maps over the ten points: the row blocks of input and output move together, every other
    block index is zero. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the arrays as the region finds them. -/
theorem flushed0 (c : Dev nD) (t : Fin cfg0.N) :
    (dat0 V c).flushed 2 t = ((cfg0.win 2).blk t).view.read (Elt Ideal) (proj (V c main_arg0) (V c main_arg4)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x64) hz0]
  obtain ⟨e0, e1, e2, e3, e4, e5⟩ := idx_facts0 t
  funext j
  obtain ⟨p, q, rfl⟩ : ∃ (p : Fin 5000) (q : Fin 64), j = ix2 p q := ⟨j 0, j 1, eq_ix2 j⟩
  refine (Payloads.proj0_apply (iblk0 V c 0 t) (iblk0 V c 1 t) p q).trans ?_
  show (∑ k : Fin 64, arr (S := S50000x64) (V c main_arg0) (((cfg0.win 0).blk t).view.emb (ix2 p k)) * arr (S := S64x64) (V c main_arg4) (((cfg0.win 1).blk t).view.emb (ix2 k q)))
      = ∑ k : Fin 64, arr (S := S50000x64) (V c main_arg0) (ix2 ((((cfg0.win 2).blk t).view.emb (ix2 p q)) 0) k) * arr (S := S64x64) (V c main_arg4) (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  exact congrArg₂ (fun a b : EReal => a * b) (congrArg (arr (S := S50000x64) (V c main_arg0)) h0) (congrArg (arr (S := S64x64) (V c main_arg4)) h1)

/-- An index of the array is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Row r lies in the block of the point whose row-block index is r / 5000. -/
theorem cover0 (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The array the region leaves is the product of the arrays it found. -/
theorem final0 (c : Dev nD) : (dat0 V c).arrAt 2 cfg0.N = proj (V c main_arg0) (V c main_arg4) :=
  (dat0 V c).arrAt_eq_of_cover 2 _ (fun t _ => flushed0 V c t) (cover0)

end Cert.KernelIdeal.Regions

end
-- ==== Proof.Region1.lean ====
/-
  Region 1: a finishing step. The grid has ten points; point t stages rows 5000·t … 5000·t + 4999 of the
  aggregate, of the projection and of the scale column, and the whole bias row, and writes back the same rows of
  aggregate + projection · scale + bias, cut below at zero. The arithmetic is entry by entry, so each written block is the
  restriction of one whole-array function to its rows, and the ten blocks cover the 50000 rows.
-/
import proofs.«173949_j61031485276242_1_alg».proof.Proof.Gen.KernelIdeal.Frame
import proofs.«173949_j61031485276242_1_alg».proof.Proof.Payloads
import proofs.«173949_j61031485276242_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Spec

theorem hz1 : (![0, 0] : Fin 2 → Nat) = fun _ => 0 := funext fun a => by fin_cases a <;> rfl

/-- The printed index maps over the ten points: the row blocks of the three tall inputs and of the output move
    together, every other block index is zero. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

set_option maxHeartbeats 1600000 in
/-- What point `t` writes back is block `t` of the finished array computed from the arrays as the region finds them. -/
theorem flushed1 (c : Dev nD) (t : Fin cfg1.N) :
    (dat1 V c).flushed 4 t = ((cfg1.win 4).blk t).view.read (Elt Ideal) (finishRelu (V c main_v40) (V c main_v27) (V c main_v42) (V c main_v41)) := by
  show (cfg1.win 4).cut (grid1.coords t) ((dat1 V c).after 4 t) = _
  rw [after1_4]
  unfold out1_4
  rw [View.canon_unit_zero hz1]
  simp only [View.ld_unit_zero (S := S5000x64) hz1, View.ld_unit_zero (S := S5000x1) hz1, View.ld_unit_zero (S := S1x64) hz1]
  obtain ⟨e0, e1, e2, e3, e4, e5, e6, e7, e8, e9⟩ := idx_facts1 t
  funext j
  obtain ⟨p, q, rfl⟩ : ∃ (p : Fin 5000) (q : Fin 64), j = ix2 p q := ⟨j 0, j 1, eq_ix2 j⟩
  refine (Payloads.finish1_apply (iblk1 V c 0 t) (iblk1 V c 1 t) (iblk1 V c 2 t) (iblk1 V c 3 t) p q).trans ?_
  show max ((arr (S := S50000x64) (V c main_v40) (((cfg1.win 0).blk t).view.emb (ix2 p q)) + arr (S := S50000x64) (V c main_v27) (((cfg1.win 1).blk t).view.emb (ix2 p q)) * arr (S := S50000x1) (V c main_v42) (((cfg1.win 2).blk t).view.emb (ix2 p (0 : Fin 1)))) + arr (S := S1x64) (V c main_v41) (((cfg1.win 3).blk t).view.emb (ix2 (0 : Fin 1) q))) z32
      = finishRelu (V c main_v40) (V c main_v27) (V c main_v42) (V c main_v41) (((cfg1.win 4).blk t).view.emb (ix2 p q))
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1)) = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  rw [h0, h1, h2, h3]
  rfl

/-- An index of the array is in point `t`'s block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- Row r lies in the block of the point whose row-block index is r / 5000. -/
theorem cover1 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The array the region leaves is the finished array computed from the arrays it found. -/
theorem final1 (c : Dev nD) : (dat1 V c).arrAt 4 cfg1.N = finishRelu (V c main_v40) (V c main_v27) (V c main_v42) (V c main_v41) :=
  (dat1 V c).arrAt_eq_of_cover 4 _ (fun t _ => flushed1 V c t) (cover1)

end Cert.KernelIdeal.Regions

end
-- ==== Proof.Layer1.lean ====
/-
  Layer 1 of the graph convolution, read through the fold.

  The projection region leaves X · W; the host operations after it gather the projected rows at the edge sources,
  scale them by the normalised edge weight and scatter-add them at the edge targets — the very operations the
  reference applies, on arrays already shown equal, so the aggregate is the reference's without opening them;
  the finishing region adds the projection scaled by the self-loop scale and the bias and cuts below at zero. Entry
  by entry this is the reference's stage of the same name.
-/
import proofs.«173949_j61031485276242_1_alg».proof.Proof.Edges
import proofs.«173949_j61031485276242_1_alg».proof.Proof.Region0
import proofs.«173949_j61031485276242_1_alg».proof.Proof.Region1
import proofs.«173949_j61031485276242_1_alg».proof.Proof.LibRowOps
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Stages

open Cert.KernelIdeal Cert.KernelIdeal.Gen Cert.KernelIdeal.Spec Cert.KernelIdeal.Fold
open Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## The projection -/

/-- The weights reach the projection region as launched. -/
theorem W1_arg4 : W1 m ρ c (Proc.devRef .tc main_arg4) = X4 m c :=
  (StableHlo.after_of_forall_not_mem (b := Proc.devRef .tc main_arg4) _ _ (by not_written hostOps0)).trans (rfl)

/-- The projection region leaves the product of its input with the weights: entry by entry the sum over k that
    the reference's `dot_general` is. -/
theorem W2_v27 : W2 m ρ c (Proc.devRef .tc main_v27) = val_main_v26 (F := Ideal) (X0 m c) (X4 m c) := by
  refine ((W2_arr m ρ c 2).trans (Regions.final0 (V1 m ρ) c)).trans ?_
  have eIn : V1 m ρ c main_arg0 = X0 m c := (StableHlo.after_of_forall_not_mem (b := Proc.devRef .tc main_arg0) _ _ (by not_written hostOps0)).trans (rfl)
  have eW : V1 m ρ c main_arg4 = X4 m c := W1_arg4 m ρ c
  refine (congrArg₂ proj eIn eW).trans ?_
  funext i
  obtain ⟨p, q, rfl⟩ : ∃ (p : Fin 50000) (q : Fin 64), i = ix2 p q := ⟨i 0, i 1, eq_ix2 i⟩
  rw [proj_apply, val_main_v26_apply]
  refine Finset.sum_congr rfl fun k _ => ?_
  have hl : lidx_main_v26 (ix2 p q) k = ix2 p k := funext fun a => match a with | ⟨0, _⟩ => rfl | ⟨1, _⟩ => rfl
  have hr : ridx_main_v26 (ix2 p q) k = ix2 k q := funext fun a => match a with | ⟨0, _⟩ => rfl | ⟨1, _⟩ => rfl
  rw [hl, hr]

/-! ## Gather, scale by the edge weight, scatter-add: the same host operations on equal arrays -/

theorem W2_arg5 : W2 m ρ c (Proc.devRef .tc main_arg5) = X5 m c :=
  (W2_of_ne m ρ c main_arg5 (by decide)).trans ((StableHlo.after_of_forall_not_mem (b := Proc.devRef .tc main_arg5) _ _ (by not_written hostOps0)).trans (rfl))

set_option maxHeartbeats 2000000 in
/-- The aggregate over incoming edges. -/
theorem W3_v40 : W3 m ρ c (Proc.devRef .tc main_v40) = val_main_v39 (F := Ideal) (X0 m c) (X1 m c) (X2 m c) (X4 m c) := by
  show StableHlo.after hostOps1 (W2 m ρ c) (Proc.devRef .tc main_v40) = _
  after_results_simp
  rw [W2_v27 m ρ c, W2_v1 m ρ c, W2_v3 m ρ c, (W2_v25 m ρ c)]
  rfl

set_option maxHeartbeats 2000000 in
/-- The bias as a row. -/
theorem W3_v41 : W3 m ρ c (Proc.devRef .tc main_v41) = shapeCast S1x64 (X5 m c) shapeCasts_S64_S1x64 := by
  show StableHlo.after hostOps1 (W2 m ρ c) (Proc.devRef .tc main_v41) = _
  after_results_simp
  rw [W2_arg5 m ρ c]
  rfl

set_option maxHeartbeats 2000000 in
/-- The self-loop scale as a column. -/
theorem W3_v42 : W3 m ρ c (Proc.devRef .tc main_v42)
    = shapeCast S50000x1 (val_main_v40 (F := Ideal) (X1 m c) (X2 m c)) shapeCasts_S50000_S50000x1 := by
  show StableHlo.after hostOps1 (W2 m ρ c) (Proc.devRef .tc main_v42) = _
  after_results_simp
  rw [W2_v26 m ρ c]
  rfl

/-- The projection is not written by these host operations. -/
theorem W3_v27 : W3 m ρ c (Proc.devRef .tc main_v27) = val_main_v26 (F := Ideal) (X0 m c) (X4 m c) :=
  (StableHlo.after_of_forall_not_mem (b := Proc.devRef .tc main_v27) _ _ (by not_written hostOps1)).trans (W2_v27 m ρ c)

/-! ## The finishing step -/

/-- The finishing region leaves aggregate + projection · scale + bias, cut below at zero: entry by entry the reference's
    broadcasts, product, two sums and maximum. -/
theorem W4_v43 : W4 m ρ c (Proc.devRef .tc main_v43) = val_main_v48 (F := Ideal) (X0 m c) (X1 m c) (X2 m c) (X4 m c) (X5 m c) := by
  refine ((W4_arr m ρ c 4).trans (Regions.final1 (V3 m ρ) c)).trans ?_
  have e0 : V3 m ρ c main_v40 = val_main_v39 (F := Ideal) (X0 m c) (X1 m c) (X2 m c) (X4 m c) := W3_v40 m ρ c
  have e1 : V3 m ρ c main_v27 = val_main_v26 (F := Ideal) (X0 m c) (X4 m c) := W3_v27 m ρ c
  have e2 : V3 m ρ c main_v42 = shapeCast S50000x1 (val_main_v40 (F := Ideal) (X1 m c) (X2 m c)) shapeCasts_S50000_S50000x1 := W3_v42 m ρ c
  have e3 : V3 m ρ c main_v41 = shapeCast S1x64 (X5 m c) shapeCasts_S64_S1x64 := W3_v41 m ρ c
  rw [e0, e1, e2, e3]
  funext i
  obtain ⟨p, q, rfl⟩ : ∃ (p : Fin 50000) (q : Fin 64), i = ix2 p q := ⟨i 0, i 1, eq_ix2 i⟩
  rw [finishRelu_apply, LibRowOps.shapeCast_a_a1_apply (a := 50000) _ _ p (0 : Fin 1), shapeCast_a_1a_apply (a := 64) _ _ (0 : Fin 1) q]
  rw [val_main_v48_apply, val_main_v47_apply, val_main_v44_apply, val_main_v43_apply, val_main_v42_apply, val_main_v41_apply, val_main_v46_apply, val_main_v45_apply, val_main_call0_v0_apply, val_main_call0_cst_apply]
  have i1 : idx_main_v41 (idx_main_v42 (ix2 p q)) = ix1 p := funext fun a => match a with | ⟨0, _⟩ => rfl
  have i2 : idx_main_v45 (idx_main_v46 (ix2 p q)) = ix1 q := funext fun a => match a with | ⟨0, _⟩ => rfl
  rw [i1, i2]
  rfl

end Cert.KernelIdeal.Stages

end
-- ==== Proof.Region2.lean ====
/-
  Region 2: a projection. The grid has ten points; point t stages rows 5000·t … 5000·t + 4999 of the left array
  and the whole 64 × 64 weights, and writes back rows 5000·t … 5000·t + 4999 of the product. Each written block is
  the restriction of the whole product to its rows, and the ten blocks cover the 50000 rows, so the array the
  region leaves is the product of the arrays it found.
-/
import proofs.«173949_j61031485276242_1_alg».proof.Proof.Gen.KernelIdeal.Frame
import proofs.«173949_j61031485276242_1_alg».proof.Proof.Payloads
import proofs.«173949_j61031485276242_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Spec

theorem hz2 : (![0, 0] : Fin 2 → Nat) = fun _ => 0 := funext fun a => by fin_cases a <;> rfl

/-- The printed index maps over the ten points: the row blocks of input and output move together, every other
    block index is zero. -/
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the product of the arrays as the region finds them. -/
theorem flushed2 (c : Dev nD) (t : Fin cfg2.N) :
    (dat2 V c).flushed 2 t = ((cfg2.win 2).blk t).view.read (Elt Ideal) (proj (V c main_v43) (V c main_arg6)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64x64) hz2]
  obtain ⟨e0, e1, e2, e3, e4, e5⟩ := idx_facts2 t
  funext j
  obtain ⟨p, q, rfl⟩ : ∃ (p : Fin 5000) (q : Fin 64), j = ix2 p q := ⟨j 0, j 1, eq_ix2 j⟩
  refine (Payloads.proj2_apply (iblk2 V c 0 t) (iblk2 V c 1 t) p q).trans ?_
  show (∑ k : Fin 64, arr (S := S50000x64) (V c main_v43) (((cfg2.win 0).blk t).view.emb (ix2 p k)) * arr (S := S64x64) (V c main_arg6) (((cfg2.win 1).blk t).view.emb (ix2 k q)))
      = ∑ k : Fin 64, arr (S := S50000x64) (V c main_v43) (ix2 ((((cfg2.win 2).blk t).view.emb (ix2 p q)) 0) k) * arr (S := S64x64) (V c main_arg6) (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  exact congrArg₂ (fun a b : EReal => a * b) (congrArg (arr (S := S50000x64) (V c main_v43)) h0) (congrArg (arr (S := S64x64) (V c main_arg6)) h1)

/-- An index of the array is in point `t`'s block iff each coordinate is in the block's range on its axis. -/
theorem mem_blk2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- Row r lies in the block of the point whose row-block index is r / 5000. -/
theorem cover2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The array the region leaves is the product of the arrays it found. -/
theorem final2 (c : Dev nD) : (dat2 V c).arrAt 2 cfg2.N = proj (V c main_v43) (V c main_arg6) :=
  (dat2 V c).arrAt_eq_of_cover 2 _ (fun t _ => flushed2 V c t) (cover2)

end Cert.KernelIdeal.Regions

end
-- ==== Proof.Region3.lean ====
/-
  Region 3: a finishing step. The grid has ten points; point t stages rows 5000·t … 5000·t + 4999 of the
  aggregate, of the projection and of the scale column, and the whole bias row, and writes back the same rows of
  aggregate + projection · scale + bias, cut below at zero. The arithmetic is entry by entry, so each written block is the
  restriction of one whole-array function to its rows, and the ten blocks cover the 50000 rows.
-/
import proofs.«173949_j61031485276242_1_alg».proof.Proof.Gen.KernelIdeal.Frame
import proofs.«173949_j61031485276242_1_alg».proof.Proof.Payloads
import proofs.«173949_j61031485276242_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Spec

theorem hz3 : (![0, 0] : Fin 2 → Nat) = fun _ => 0 := funext fun a => by fin_cases a <;> rfl

/-- The printed index maps over the ten points: the row blocks of the three tall inputs and of the output move
    together, every other block index is zero. -/
theorem idx_facts3 : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Every row block is some point's. -/
theorem idx_onto3 : ∀ q0 : Fin 10, ∃ t : Fin cfg3.N, win3_4.index t = ![q0.val, 0] :=
  (by decide +kernel : ∀ q0 : Fin 10, ∃ t : Fin grid3.N, win3_4.index t = ![q0.val, 0])

set_option maxHeartbeats 1600000 in
/-- What point `t` writes back is block `t` of the finished array computed from the arrays as the region finds them. -/
theorem flushed3 (c : Dev nD) (t : Fin cfg3.N) :
    (dat3 V c).flushed 4 t = ((cfg3.win 4).blk t).view.read (Elt Ideal) (finishRelu (V c main_v57) (V c main_v44) (V c main_v59) (V c main_v58)) := by
  show (cfg3.win 4).cut (grid3.coords t) ((dat3 V c).after 4 t) = _
  rw [after3_4]
  unfold out3_4
  rw [View.canon_unit_zero hz3]
  simp only [View.ld_unit_zero (S := S5000x64) hz3, View.ld_unit_zero (S := S5000x1) hz3, View.ld_unit_zero (S := S1x64) hz3]
  obtain ⟨e0, e1, e2, e3, e4, e5, e6, e7, e8, e9⟩ := idx_facts3 t
  funext j
  obtain ⟨p, q, rfl⟩ : ∃ (p : Fin 5000) (q : Fin 64), j = ix2 p q := ⟨j 0, j 1, eq_ix2 j⟩
  refine (Payloads.finish3_apply (iblk3 V c 0 t) (iblk3 V c 1 t) (iblk3 V c 2 t) (iblk3 V c 3 t) p q).trans ?_
  show max ((arr (S := S50000x64) (V c main_v57) (((cfg3.win 0).blk t).view.emb (ix2 p q)) + arr (S := S50000x64) (V c main_v44) (((cfg3.win 1).blk t).view.emb (ix2 p q)) * arr (S := S50000x1) (V c main_v59) (((cfg3.win 2).blk t).view.emb (ix2 p (0 : Fin 1)))) + arr (S := S1x64) (V c main_v58) (((cfg3.win 3).blk t).view.emb (ix2 (0 : Fin 1) q))) z32
      = finishRelu (V c main_v57) (V c main_v44) (V c main_v59) (V c main_v58) (((cfg3.win 4).blk t).view.emb (ix2 p q))
  have h0 : ((cfg3.win 0).blk t).view.emb (ix2 p q) = ((cfg3.win 4).blk t).view.emb (ix2 p q) := by
    funext a; apply Fin.ext
    match a with
    | ⟨0, _⟩ => show win3_0.index t (0 : Fin 2) * 5000 + 1 * p.val = win3_4.index t (0 : Fin 2) * 5000 + 1 * p.val; omega
    | ⟨1, _⟩ => show win3_0.index t (1 : Fin 2) * 64 + 1 * q.val = win3_4.index t (1 : Fin 2) * 64 + 1 * q.val; omega
  have h1 : ((cfg3.win 1).blk t).view.emb (ix2 p q) = ((cfg3.win 4).blk t).view.emb (ix2 p q) := by
    funext a; apply Fin.ext
    match a with
    | ⟨0, _⟩ => show win3_1.index t (0 : Fin 2) * 5000 + 1 * p.val = win3_4.index t (0 : Fin 2) * 5000 + 1 * p.val; omega
    | ⟨1, _⟩ => show win3_1.index t (1 : Fin 2) * 64 + 1 * q.val = win3_4.index t (1 : Fin 2) * 64 + 1 * q.val; omega
  have h2 : ((cfg3.win 2).blk t).view.emb (ix2 p (0 : Fin 1)) = ix2 ((((cfg3.win 4).blk t).view.emb (ix2 p q)) 0) (0 : Fin 1) := by
    funext a; apply Fin.ext
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have h3 : ((cfg3.win 3).blk t).view.emb (ix2 (0 : Fin 1) q) = ix2 (0 : Fin 1) ((((cfg3.win 4).blk t).view.emb (ix2 p q)) 1) := by
    funext a; apply Fin.ext
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  rw [h0, h1, h2, h3]
  rfl

/-- An index of the array is in point `t`'s block iff each coordinate is in the block's range on its axis. -/
theorem mem_blk3 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v60).slice (win3_4.rect t)).set ↔ _
  rw [View.set_slice_whole, Rect.mem_set_unit]
  exact Iff.rfl

/-- Row r lies in the block of the point whose row-block index is r / 5000. -/
theorem cover3 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The array the region leaves is the finished array computed from the arrays it found. -/
theorem final3 (c : Dev nD) : (dat3 V c).arrAt 4 cfg3.N = finishRelu (V c main_v57) (V c main_v44) (V c main_v59) (V c main_v58) :=
  (dat3 V c).arrAt_eq_of_cover 4 _ (fun t _ => flushed3 V c t) (cover3)

end Cert.KernelIdeal.Regions

end
-- ==== Proof.Layer2.lean ====
/-
  Layer 2 of the graph convolution, read through the fold.

  The projection region leaves X · W; the host operations after it gather the projected rows at the edge sources,
  scale them by the normalised edge weight and scatter-add them at the edge targets — the very operations the
  reference applies, on arrays already shown equal, so the aggregate is the reference's without opening them;
  the finishing region adds the projection scaled by the self-loop scale and the bias and cuts below at zero. Entry
  by entry this is the reference's stage of the same name.
-/
import proofs.«173949_j61031485276242_1_alg».proof.Proof.Layer1
import proofs.«173949_j61031485276242_1_alg».proof.Proof.Region2
import proofs.«173949_j61031485276242_1_alg».proof.Proof.Region3
import proofs.«173949_j61031485276242_1_alg».proof.Proof.LibRowOps
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Stages

open Cert.KernelIdeal Cert.KernelIdeal.Gen Cert.KernelIdeal.Spec Cert.KernelIdeal.Fold
open Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## The projection -/

/-- The weights reach the projection region as launched. -/
theorem W4_arg6 : W4 m ρ c (Proc.devRef .tc main_arg6) = X6 m c :=
  (W4_of_ne m ρ c main_arg6 (by decide)).trans ((StableHlo.after_of_forall_not_mem (b := Proc.devRef .tc main_arg6) _ _ (by not_written hostOps1)).trans ((W2_of_ne m ρ c main_arg6 (by decide)).trans ((StableHlo.after_of_forall_not_mem (b := Proc.devRef .tc main_arg6) _ _ (by not_written hostOps0)).trans (rfl))))

/-- The projection region leaves the product of its input with the weights: entry by entry the sum over k that
    the reference's `dot_general` is. -/
theorem W5_v44 : W5 m ρ c (Proc.devRef .tc main_v44) = val_main_v71 (F := Ideal) (X0 m c) (X1 m c) (X2 m c) (X4 m c) (X5 m c) (X6 m c) := by
  refine ((W5_arr m ρ c 2).trans (Regions.final2 (V4 m ρ) c)).trans ?_
  have eIn : V4 m ρ c main_v43 = val_main_v48 (F := Ideal) (X0 m c) (X1 m c) (X2 m c) (X4 m c) (X5 m c) := W4_v43 m ρ c
  have eW : V4 m ρ c main_arg6 = X6 m c := W4_arg6 m ρ c
  refine (congrArg₂ proj eIn eW).trans ?_
  funext i
  obtain ⟨p, q, rfl⟩ : ∃ (p : Fin 50000) (q : Fin 64), i = ix2 p q := ⟨i 0, i 1, eq_ix2 i⟩
  rw [proj_apply, val_main_v71_apply]
  refine Finset.sum_congr rfl fun k _ => ?_
  have hl : lidx_main_v71 (ix2 p q) k = ix2 p k := funext fun a => match a with | ⟨0, _⟩ => rfl | ⟨1, _⟩ => rfl
  have hr : ridx_main_v71 (ix2 p q) k = ix2 k q := funext fun a => match a with | ⟨0, _⟩ => rfl | ⟨1, _⟩ => rfl
  rw [hl, hr]

/-! ## Gather, scale by the edge weight, scatter-add: the same host operations on equal arrays -/

theorem W5_arg7 : W5 m ρ c (Proc.devRef .tc main_arg7) = X7 m c :=
  (W5_of_ne m ρ c main_arg7 (by decide)).trans ((W4_of_ne m ρ c main_arg7 (by decide)).trans ((StableHlo.after_of_forall_not_mem (b := Proc.devRef .tc main_arg7) _ _ (by not_written hostOps1)).trans ((W2_of_ne m ρ c main_arg7 (by decide)).trans ((StableHlo.after_of_forall_not_mem (b := Proc.devRef .tc main_arg7) _ _ (by not_written hostOps0)).trans (rfl)))))

set_option maxHeartbeats 2000000 in
/-- The aggregate over incoming edges. -/
theorem W6_v57 : W6 m ρ c (Proc.devRef .tc main_v57) = val_main_v84 (F := Ideal) (X0 m c) (X1 m c) (X2 m c) (X4 m c) (X5 m c) (X6 m c) := by
  show StableHlo.after hostOps3 (W5 m ρ c) (Proc.devRef .tc main_v57) = _
  after_results_simp
  rw [W5_v44 m ρ c, W5_v1 m ρ c, W5_v3 m ρ c, ((W5_v25 m ρ c).trans (norm_copy2 _ _).symm)]
  rfl

set_option maxHeartbeats 2000000 in
/-- The bias as a row. -/
theorem W6_v58 : W6 m ρ c (Proc.devRef .tc main_v58) = shapeCast S1x64 (X7 m c) shapeCasts_S64_S1x64 := by
  show StableHlo.after hostOps3 (W5 m ρ c) (Proc.devRef .tc main_v58) = _
  after_results_simp
  rw [W5_arg7 m ρ c]
  rfl

set_option maxHeartbeats 2000000 in
/-- The self-loop scale as a column. -/
theorem W6_v59 : W6 m ρ c (Proc.devRef .tc main_v59)
    = shapeCast S50000x1 (val_main_v40 (F := Ideal) (X1 m c) (X2 m c)) shapeCasts_S50000_S50000x1 := by
  show StableHlo.after hostOps3 (W5 m ρ c) (Proc.devRef .tc main_v59) = _
  after_results_simp
  rw [W5_v26 m ρ c]
  rfl

/-- The projection is not written by these host operations. -/
theorem W6_v44 : W6 m ρ c (Proc.devRef .tc main_v44) = val_main_v71 (F := Ideal) (X0 m c) (X1 m c) (X2 m c) (X4 m c) (X5 m c) (X6 m c) :=
  (StableHlo.after_of_forall_not_mem (b := Proc.devRef .tc main_v44) _ _ (by not_written hostOps3)).trans (W5_v44 m ρ c)

/-! ## The finishing step -/

/-- The finishing region leaves aggregate + projection · scale + bias, cut below at zero: entry by entry the reference's
    broadcasts, product, two sums and maximum. -/
theorem W7_v60 : W7 m ρ c (Proc.devRef .tc main_v60) = val_main_v93 (F := Ideal) (X0 m c) (X1 m c) (X2 m c) (X4 m c) (X5 m c) (X6 m c) (X7 m c) := by
  refine ((W7_arr m ρ c 4).trans (Regions.final3 (V6 m ρ) c)).trans ?_
  have e0 : V6 m ρ c main_v57 = val_main_v84 (F := Ideal) (X0 m c) (X1 m c) (X2 m c) (X4 m c) (X5 m c) (X6 m c) := W6_v57 m ρ c
  have e1 : V6 m ρ c main_v44 = val_main_v71 (F := Ideal) (X0 m c) (X1 m c) (X2 m c) (X4 m c) (X5 m c) (X6 m c) := W6_v44 m ρ c
  have e2 : V6 m ρ c main_v59 = shapeCast S50000x1 (val_main_v40 (F := Ideal) (X1 m c) (X2 m c)) shapeCasts_S50000_S50000x1 := W6_v59 m ρ c
  have e3 : V6 m ρ c main_v58 = shapeCast S1x64 (X7 m c) shapeCasts_S64_S1x64 := W6_v58 m ρ c
  rw [e0, e1, e2, e3]
  funext i
  obtain ⟨p, q, rfl⟩ : ∃ (p : Fin 50000) (q : Fin 64), i = ix2 p q := ⟨i 0, i 1, eq_ix2 i⟩
  rw [finishRelu_apply, LibRowOps.shapeCast_a_a1_apply (a := 50000) _ _ p (0 : Fin 1), shapeCast_a_1a_apply (a := 64) _ _ (0 : Fin 1) q]
  rw [val_main_v93_apply, val_main_v92_apply, val_main_v89_apply, val_main_v88_apply, val_main_v87_apply, val_main_v86_apply, val_main_v91_apply, val_main_v90_apply, val_main_call1_v0_apply, val_main_call1_cst_apply]
  have i1 : idx_main_v86 (idx_main_v87 (ix2 p q)) = ix1 p := funext fun a => match a with | ⟨0, _⟩ => rfl
  have i2 : idx_main_v90 (idx_main_v91 (ix2 p q)) = ix1 q := funext fun a => match a with | ⟨0, _⟩ => rfl
  rw [i1, i2, scale_copy2]
  rfl

end Cert.KernelIdeal.Stages

end
-- ==== Proof.Region4.lean ====
/-
  Region 4: a projection. The grid has ten points; point t stages rows 5000·t … 5000·t + 4999 of the left array
  and the whole 64 × 64 weights, and writes back rows 5000·t … 5000·t + 4999 of the product. Each written block is
  the restriction of the whole product to its rows, and the ten blocks cover the 50000 rows, so the array the
  region leaves is the product of the arrays it found.
-/
import proofs.«173949_j61031485276242_1_alg».proof.Proof.Gen.KernelIdeal.Frame
import proofs.«173949_j61031485276242_1_alg».proof.Proof.Payloads
import proofs.«173949_j61031485276242_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Spec

theorem hz4 : (![0, 0] : Fin 2 → Nat) = fun _ => 0 := funext fun a => by fin_cases a <;> rfl

/-- The printed index maps over the ten points: the row blocks of input and output move together, every other
    block index is zero. -/
theorem idx_facts4 : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block is some point's. -/
theorem idx_onto4 : ∀ q0 : Fin 10, ∃ t : Fin cfg4.N, win4_2.index t = ![q0.val, 0] :=
  (by decide +kernel : ∀ q0 : Fin 10, ∃ t : Fin grid4.N, win4_2.index t = ![q0.val, 0])

/-- What point `t` writes back is block `t` of the product of the arrays as the region finds them. -/
theorem flushed4 (c : Dev nD) (t : Fin cfg4.N) :
    (dat4 V c).flushed 2 t = ((cfg4.win 2).blk t).view.read (Elt Ideal) (proj (V c main_v60) (V c main_arg8)) := by
  show (cfg4.win 2).cut (grid4.coords t) ((dat4 V c).after 2 t) = _
  rw [after4_2]
  unfold out4_2
  rw [View.canon_unit_zero hz4]
  simp only [View.ld_unit_zero (S := S5000x64) hz4, View.ld_unit_zero (S := S64x64) hz4]
  obtain ⟨e0, e1, e2, e3, e4, e5⟩ := idx_facts4 t
  funext j
  obtain ⟨p, q, rfl⟩ : ∃ (p : Fin 5000) (q : Fin 64), j = ix2 p q := ⟨j 0, j 1, eq_ix2 j⟩
  refine (Payloads.proj4_apply (iblk4 V c 0 t) (iblk4 V c 1 t) p q).trans ?_
  show (∑ k : Fin 64, arr (S := S50000x64) (V c main_v60) (((cfg4.win 0).blk t).view.emb (ix2 p k)) * arr (S := S64x64) (V c main_arg8) (((cfg4.win 1).blk t).view.emb (ix2 k q)))
      = ∑ k : Fin 64, arr (S := S50000x64) (V c main_v60) (ix2 ((((cfg4.win 2).blk t).view.emb (ix2 p q)) 0) k) * arr (S := S64x64) (V c main_arg8) (ix2 k ((((cfg4.win 2).blk t).view.emb (ix2 p q)) 1))
  refine Finset.sum_congr rfl fun k _ => ?_
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 64 + 1 * k.val = k.val; omega
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 64 + 1 * k.val = k.val; omega
    | ⟨1, _⟩ => show win4_1.index t (1 : Fin 2) * 64 + 1 * q.val = win4_2.index t (1 : Fin 2) * 64 + 1 * q.val; omega
  exact congrArg₂ (fun a b : EReal => a * b) (congrArg (arr (S := S50000x64) (V c main_v60)) h0) (congrArg (arr (S := S64x64) (V c main_arg8)) h1)

/-- An index of the array is in point `t`'s block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v61).slice (win4_2.rect t)).set ↔ _
  rw [View.set_slice_whole, Rect.mem_set_unit]
  exact Iff.rfl

/-- Row r lies in the block of the point whose row-block index is r / 5000. -/
theorem cover4 (i : S50000x64.Idx) : ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The array the region leaves is the product of the arrays it found. -/
theorem final4 (c : Dev nD) : (dat4 V c).arrAt 2 cfg4.N = proj (V c main_v60) (V c main_arg8) :=
  (dat4 V c).arrAt_eq_of_cover 2 _ (fun t _ => flushed4 V c t) (cover4)

end Cert.KernelIdeal.Regions

end
-- ==== Proof.Region5.lean ====
/-
  Region 5: a finishing step. The grid has ten points; point t stages rows 5000·t … 5000·t + 4999 of the
  aggregate, of the projection and of the scale column, and the whole bias row, and writes back the same rows of
  aggregate + projection · scale + bias. The arithmetic is entry by entry, so each written block is the
  restriction of one whole-array function to its rows, and the ten blocks cover the 50000 rows.
-/
import proofs.«173949_j61031485276242_1_alg».proof.Proof.Gen.KernelIdeal.Frame
import proofs.«173949_j61031485276242_1_alg».proof.Proof.Payloads
import proofs.«173949_j61031485276242_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Spec

theorem hz5 : (![0, 0] : Fin 2 → Nat) = fun _ => 0 := funext fun a => by fin_cases a <;> rfl

/-- The printed index maps over the ten points: the row blocks of the three tall inputs and of the output move
    together, every other block index is zero. -/
theorem idx_facts5 : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (1 : Fin 2) = 0 ∧ win5_4.index t (0 : Fin 2) ≤ 9 :=
  (by decide +kernel : ∀ t : Fin grid5.N, _)

/-- Every row block is some point's. -/
theorem idx_onto5 : ∀ q0 : Fin 10, ∃ t : Fin cfg5.N, win5_4.index t = ![q0.val, 0] :=
  (by decide +kernel : ∀ q0 : Fin 10, ∃ t : Fin grid5.N, win5_4.index t = ![q0.val, 0])

set_option maxHeartbeats 1600000 in
/-- What point `t` writes back is block `t` of the finished array computed from the arrays as the region finds them. -/
theorem flushed5 (c : Dev nD) (t : Fin cfg5.N) :
    (dat5 V c).flushed 4 t = ((cfg5.win 4).blk t).view.read (Elt Ideal) (finish (V c main_v74) (V c main_v61) (V c main_v76) (V c main_v75)) := by
  show (cfg5.win 4).cut (grid5.coords t) ((dat5 V c).after 4 t) = _
  rw [after5_4]
  unfold out5_4
  rw [View.canon_unit_zero hz5]
  simp only [View.ld_unit_zero (S := S5000x64) hz5, View.ld_unit_zero (S := S5000x1) hz5, View.ld_unit_zero (S := S1x64) hz5]
  obtain ⟨e0, e1, e2, e3, e4, e5, e6, e7, e8, e9⟩ := idx_facts5 t
  funext j
  obtain ⟨p, q, rfl⟩ : ∃ (p : Fin 5000) (q : Fin 64), j = ix2 p q := ⟨j 0, j 1, eq_ix2 j⟩
  refine (Payloads.finish5_apply (iblk5 V c 0 t) (iblk5 V c 1 t) (iblk5 V c 2 t) (iblk5 V c 3 t) p q).trans ?_
  show (arr (S := S50000x64) (V c main_v74) (((cfg5.win 0).blk t).view.emb (ix2 p q)) + arr (S := S50000x64) (V c main_v61) (((cfg5.win 1).blk t).view.emb (ix2 p q)) * arr (S := S50000x1) (V c main_v76) (((cfg5.win 2).blk t).view.emb (ix2 p (0 : Fin 1)))) + arr (S := S1x64) (V c main_v75) (((cfg5.win 3).blk t).view.emb (ix2 (0 : Fin 1) q))
      = finish (V c main_v74) (V c main_v61) (V c main_v76) (V c main_v75) (((cfg5.win 4).blk t).view.emb (ix2 p q))
  have h0 : ((cfg5.win 0).blk t).view.emb (ix2 p q) = ((cfg5.win 4).blk t).view.emb (ix2 p q) := by
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 64 + 1 * q.val = win5_4.index t (1 : Fin 2) * 64 + 1 * q.val; omega
  have h1 : ((cfg5.win 1).blk t).view.emb (ix2 p q) = ((cfg5.win 4).blk t).view.emb (ix2 p q) := by
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 64 + 1 * q.val = win5_4.index t (1 : Fin 2) * 64 + 1 * q.val; omega
  have h2 : ((cfg5.win 2).blk t).view.emb (ix2 p (0 : Fin 1)) = ix2 ((((cfg5.win 4).blk t).view.emb (ix2 p q)) 0) (0 : Fin 1) := by
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  have h3 : ((cfg5.win 3).blk t).view.emb (ix2 (0 : Fin 1) q) = ix2 (0 : Fin 1) ((((cfg5.win 4).blk t).view.emb (ix2 p q)) 1) := by
    funext a; apply Fin.ext
    match a with
    | ⟨0, _⟩ => show win5_3.index t (0 : Fin 2) * 1 + 1 * 0 = 0; omega
    | ⟨1, _⟩ => show win5_3.index t (1 : Fin 2) * 64 + 1 * q.val = win5_4.index t (1 : Fin 2) * 64 + 1 * q.val; omega
  rw [h0, h1, h2, h3]
  rfl

/-- An index of the array is in point `t`'s block iff each coordinate is in the block's range on its axis. -/
theorem mem_blk5 (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v77).slice (win5_4.rect t)).set ↔ _
  rw [View.set_slice_whole, Rect.mem_set_unit]
  exact Iff.rfl

/-- Row r lies in the block of the point whose row-block index is r / 5000. -/
theorem cover5 (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ := idx_onto5 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The array the region leaves is the finished array computed from the arrays it found. -/
theorem final5 (c : Dev nD) : (dat5 V c).arrAt 4 cfg5.N = finish (V c main_v74) (V c main_v61) (V c main_v76) (V c main_v75) :=
  (dat5 V c).arrAt_eq_of_cover 4 _ (fun t _ => flushed5 V c t) (cover5)

end Cert.KernelIdeal.Regions

end
-- ==== Proof.Layer3.lean ====
/-
  Layer 3 of the graph convolution, read through the fold.

  The projection region leaves X · W; the host operations after it gather the projected rows at the edge sources,
  scale them by the normalised edge weight and scatter-add them at the edge targets — the very operations the
  reference applies, on arrays already shown equal, so the aggregate is the reference's without opening them;
  the finishing region adds the projection scaled by the self-loop scale and the bias. Entry
  by entry this is the reference's stage of the same name.
-/
import proofs.«173949_j61031485276242_1_alg».proof.Proof.Layer2
import proofs.«173949_j61031485276242_1_alg».proof.Proof.Region4
import proofs.«173949_j61031485276242_1_alg».proof.Proof.Region5
import proofs.«173949_j61031485276242_1_alg».proof.Proof.LibRowOps
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Stages

open Cert.KernelIdeal Cert.KernelIdeal.Gen Cert.KernelIdeal.Spec Cert.KernelIdeal.Fold
open Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## The projection -/

/-- The weights reach the projection region as launched. -/
theorem W7_arg8 : W7 m ρ c (Proc.devRef .tc main_arg8) = X8 m c :=
  (W7_of_ne m ρ c main_arg8 (by decide)).trans ((StableHlo.after_of_forall_not_mem (b := Proc.devRef .tc main_arg8) _ _ (by not_written hostOps3)).trans ((W5_of_ne m ρ c main_arg8 (by decide)).trans ((W4_of_ne m ρ c main_arg8 (by decide)).trans ((StableHlo.after_of_forall_not_mem (b := Proc.devRef .tc main_arg8) _ _ (by not_written hostOps1)).trans ((W2_of_ne m ρ c main_arg8 (by decide)).trans ((StableHlo.after_of_forall_not_mem (b := Proc.devRef .tc main_arg8) _ _ (by not_written hostOps0)).trans (rfl)))))))

/-- The projection region leaves the product of its input with the weights: entry by entry the sum over k that
    the reference's `dot_general` is. -/
theorem W8_v61 : W8 m ρ c (Proc.devRef .tc main_v61) = val_main_v116 (F := Ideal) (X0 m c) (X1 m c) (X2 m c) (X4 m c) (X5 m c) (X6 m c) (X7 m c) (X8 m c) := by
  refine ((W8_arr m ρ c 2).trans (Regions.final4 (V7 m ρ) c)).trans ?_
  have eIn : V7 m ρ c main_v60 = val_main_v93 (F := Ideal) (X0 m c) (X1 m c) (X2 m c) (X4 m c) (X5 m c) (X6 m c) (X7 m c) := W7_v60 m ρ c
  have eW : V7 m ρ c main_arg8 = X8 m c := W7_arg8 m ρ c
  refine (congrArg₂ proj eIn eW).trans ?_
  funext i
  obtain ⟨p, q, rfl⟩ : ∃ (p : Fin 50000) (q : Fin 64), i = ix2 p q := ⟨i 0, i 1, eq_ix2 i⟩
  rw [proj_apply, val_main_v116_apply]
  refine Finset.sum_congr rfl fun k _ => ?_
  have hl : lidx_main_v116 (ix2 p q) k = ix2 p k := funext fun a => match a with | ⟨0, _⟩ => rfl | ⟨1, _⟩ => rfl
  have hr : ridx_main_v116 (ix2 p q) k = ix2 k q := funext fun a => match a with | ⟨0, _⟩ => rfl | ⟨1, _⟩ => rfl
  rw [hl, hr]

/-! ## Gather, scale by the edge weight, scatter-add: the same host operations on equal arrays -/

theorem W8_arg9 : W8 m ρ c (Proc.devRef .tc main_arg9) = X9 m c :=
  (W8_of_ne m ρ c main_arg9 (by decide)).trans ((W7_of_ne m ρ c main_arg9 (by decide)).trans ((StableHlo.after_of_forall_not_mem (b := Proc.devRef .tc main_arg9) _ _ (by not_written hostOps3)).trans ((W5_of_ne m ρ c main_arg9 (by decide)).trans ((W4_of_ne m ρ c main_arg9 (by decide)).trans ((StableHlo.after_of_forall_not_mem (b := Proc.devRef .tc main_arg9) _ _ (by not_written hostOps1)).trans ((W2_of_ne m ρ c main_arg9 (by decide)).trans ((StableHlo.after_of_forall_not_mem (b := Proc.devRef .tc main_arg9) _ _ (by not_written hostOps0)).trans (rfl))))))))

set_option maxHeartbeats 2000000 in
/-- The aggregate over incoming edges. -/
theorem W9_v74 : W9 m ρ c (Proc.devRef .tc main_v74) = val_main_v129 (F := Ideal) (X0 m c) (X1 m c) (X2 m c) (X4 m c) (X5 m c) (X6 m c) (X7 m c) (X8 m c) := by
  show StableHlo.after hostOps5 (W8 m ρ c) (Proc.devRef .tc main_v74) = _
  after_results_simp
  rw [W8_v61 m ρ c, W8_v1 m ρ c, W8_v3 m ρ c, ((W8_v25 m ρ c).trans (norm_copy3 _ _).symm)]
  rfl

set_option maxHeartbeats 2000000 in
/-- The bias as a row. -/
theorem W9_v75 : W9 m ρ c (Proc.devRef .tc main_v75) = shapeCast S1x64 (X9 m c) shapeCasts_S64_S1x64 := by
  show StableHlo.after hostOps5 (W8 m ρ c) (Proc.devRef .tc main_v75) = _
  after_results_simp
  rw [W8_arg9 m ρ c]
  rfl

set_option maxHeartbeats 2000000 in
/-- The self-loop scale as a column. -/
theorem W9_v76 : W9 m ρ c (Proc.devRef .tc main_v76)
    = shapeCast S50000x1 (val_main_v40 (F := Ideal) (X1 m c) (X2 m c)) shapeCasts_S50000_S50000x1 := by
  show StableHlo.after hostOps5 (W8 m ρ c) (Proc.devRef .tc main_v76) = _
  after_results_simp
  rw [W8_v26 m ρ c]
  rfl

/-- The projection is not written by these host operations. -/
theorem W9_v61 : W9 m ρ c (Proc.devRef .tc main_v61) = val_main_v116 (F := Ideal) (X0 m c) (X1 m c) (X2 m c) (X4 m c) (X5 m c) (X6 m c) (X7 m c) (X8 m c) :=
  (StableHlo.after_of_forall_not_mem (b := Proc.devRef .tc main_v61) _ _ (by not_written hostOps5)).trans (W8_v61 m ρ c)

/-! ## The finishing step -/

/-- The finishing region leaves aggregate + projection · scale + bias: entry by entry the reference's
    broadcasts, product, two sums. -/
theorem W10_v77 : W10 m ρ c (Proc.devRef .tc main_v77) = val_main_v137 (F := Ideal) (X0 m c) (X1 m c) (X2 m c) (X4 m c) (X5 m c) (X6 m c) (X7 m c) (X8 m c) (X9 m c) := by
  refine ((W10_arr m ρ c 4).trans (Regions.final5 (V9 m ρ) c)).trans ?_
  have e0 : V9 m ρ c main_v74 = val_main_v129 (F := Ideal) (X0 m c) (X1 m c) (X2 m c) (X4 m c) (X5 m c) (X6 m c) (X7 m c) (X8 m c) := W9_v74 m ρ c
  have e1 : V9 m ρ c main_v61 = val_main_v116 (F := Ideal) (X0 m c) (X1 m c) (X2 m c) (X4 m c) (X5 m c) (X6 m c) (X7 m c) (X8 m c) := W9_v61 m ρ c
  have e2 : V9 m ρ c main_v76 = shapeCast S50000x1 (val_main_v40 (F := Ideal) (X1 m c) (X2 m c)) shapeCasts_S50000_S50000x1 := W9_v76 m ρ c
  have e3 : V9 m ρ c main_v75 = shapeCast S1x64 (X9 m c) shapeCasts_S64_S1x64 := W9_v75 m ρ c
  rw [e0, e1, e2, e3]
  funext i
  obtain ⟨p, q, rfl⟩ : ∃ (p : Fin 50000) (q : Fin 64), i = ix2 p q := ⟨i 0, i 1, eq_ix2 i⟩
  rw [finish_apply, LibRowOps.shapeCast_a_a1_apply (a := 50000) _ _ p (0 : Fin 1), shapeCast_a_1a_apply (a := 64) _ _ (0 : Fin 1) q]
  rw [val_main_v137_apply, val_main_v134_apply, val_main_v133_apply, val_main_v132_apply, val_main_v131_apply, val_main_v136_apply, val_main_v135_apply]
  have i1 : idx_main_v131 (idx_main_v132 (ix2 p q)) = ix1 p := funext fun a => match a with | ⟨0, _⟩ => rfl
  have i2 : idx_main_v135 (idx_main_v136 (ix2 p q)) = ix1 q := funext fun a => match a with | ⟨0, _⟩ => rfl
  rw [i1, i2, scale_copy3]
  rfl

end Cert.KernelIdeal.Stages

end
-- ==== Proof.Region6.lean ====
/-
  Region 6: a pooled layer. The grid has one point, which stages the whole 64 × 64 input, the whole 64 × 64
  weights and the bias row, and writes back the whole 64 × 64 product plus bias, cut below at zero. The one
  block is the whole array.
-/
import proofs.«173949_j61031485276242_1_alg».proof.Proof.Gen.KernelIdeal.Frame
import proofs.«173949_j61031485276242_1_alg».proof.Proof.Payloads
import proofs.«173949_j61031485276242_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Spec

theorem hz6 : (![0, 0] : Fin 2 → Nat) = fun _ => 0 := funext fun a => by fin_cases a <;> rfl

/-- The printed index maps at the one point: every block index is zero. -/
theorem idx_facts6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- There is a point. -/
theorem idx_onto6 : ∃ t : Fin cfg6.N, win6_3.index t = ![0, 0] :=
  (by decide +kernel : ∃ t : Fin grid6.N, win6_3.index t = ![0, 0])

set_option maxHeartbeats 1600000 in
/-- What the point writes back is the layer's array computed from the arrays as the region finds them. -/
theorem flushed6 (c : Dev nD) (t : Fin cfg6.N) :
    (dat6 V c).flushed 3 t = ((cfg6.win 3).blk t).view.read (Elt Ideal) (pooledRelu (V c main_v89) (V c main_arg10) (V c main_v90)) := by
  show (cfg6.win 3).cut (grid6.coords t) ((dat6 V c).after 3 t) = _
  rw [after6_3]
  unfold out6_3
  rw [View.canon_unit_zero hz6]
  simp only [View.ld_unit_zero (S := S64x64) hz6, View.ld_unit_zero (S := S1x64) hz6]
  obtain ⟨e0, e1, e2, e3, e4, e5, e6, e7⟩ := idx_facts6 t
  funext j
  obtain ⟨p, q, rfl⟩ : ∃ (p : Fin 64) (q : Fin 64), j = ix2 p q := ⟨j 0, j 1, eq_ix2 j⟩
  refine (Payloads.pooled6_apply (iblk6 V c 0 t) (iblk6 V c 1 t) (iblk6 V c 2 t) p q).trans ?_
  show max ((∑ k : Fin 64, arr (S := S64x64) (V c main_v89) (((cfg6.win 0).blk t).view.emb (ix2 p k)) * arr (S := S64x64) (V c main_arg10) (((cfg6.win 1).blk t).view.emb (ix2 k q))) + arr (S := S1x64) (V c main_v90) (((cfg6.win 2).blk t).view.emb (ix2 (0 : Fin 1) q))) z32
      = pooledRelu (V c main_v89) (V c main_arg10) (V c main_v90) (((cfg6.win 3).blk t).view.emb (ix2 p q))
  have h0 : ∀ k : Fin 64, ((cfg6.win 0).blk t).view.emb (ix2 p k) = ix2 ((((cfg6.win 3).blk t).view.emb (ix2 p q)) 0) k := fun k => by
    funext a; apply Fin.ext
    match a with
    | ⟨0, _⟩ => show win6_0.index t (0 : Fin 2) * 64 + 1 * p.val = win6_3.index t (0 : Fin 2) * 64 + 1 * p.val; omega
    | ⟨1, _⟩ => show win6_0.index t (1 : Fin 2) * 64 + 1 * k.val = k.val; omega
  have h1 : ∀ k : Fin 64, ((cfg6.win 1).blk t).view.emb (ix2 k q) = ix2 k ((((cfg6.win 3).blk t).view.emb (ix2 p q)) 1) := fun k => by
    funext a; apply Fin.ext
    match a with
    | ⟨0, _⟩ => show win6_1.index t (0 : Fin 2) * 64 + 1 * k.val = k.val; omega
    | ⟨1, _⟩ => show win6_1.index t (1 : Fin 2) * 64 + 1 * q.val = win6_3.index t (1 : Fin 2) * 64 + 1 * q.val; omega
  have h2 : ((cfg6.win 2).blk t).view.emb (ix2 (0 : Fin 1) q) = ix2 (0 : Fin 1) ((((cfg6.win 3).blk t).view.emb (ix2 p q)) 1) := by
    funext a; apply Fin.ext
    match a with
    | ⟨0, _⟩ => show win6_2.index t (0 : Fin 2) * 1 + 1 * 0 = 0; omega
    | ⟨1, _⟩ => show win6_2.index t (1 : Fin 2) * 64 + 1 * q.val = win6_3.index t (1 : Fin 2) * 64 + 1 * q.val; omega
  have hs : (∑ k : Fin 64, arr (S := S64x64) (V c main_v89) (((cfg6.win 0).blk t).view.emb (ix2 p k)) * arr (S := S64x64) (V c main_arg10) (((cfg6.win 1).blk t).view.emb (ix2 k q)))
      = ∑ k : Fin 64, arr (S := S64x64) (V c main_v89) (ix2 ((((cfg6.win 3).blk t).view.emb (ix2 p q)) 0) k) * arr (S := S64x64) (V c main_arg10) (ix2 k ((((cfg6.win 3).blk t).view.emb (ix2 p q)) 1)) :=
    Finset.sum_congr rfl fun k _ => congrArg₂ (fun a b : EReal => a * b)
      (congrArg (arr (S := S64x64) (V c main_v89)) (h0 k)) (congrArg (arr (S := S64x64) (V c main_arg10)) (h1 k))
  exact congrArg₂ (fun s u : EReal => max (s + u) z32) hs (congrArg (arr (S := S1x64) (V c main_v90)) h2)

/-- An index of the array is in the point's block iff each coordinate is in the block's range on its axis. -/
theorem mem_blk6 (t : Fin cfg6.N) (i : S64x64.Idx) :
    i ∈ ((cfg6.win 3).blk t).view.set ↔ ∀ a : Fin 2, win6_3.index t a * S64x64.size a ≤ (i a).val ∧ (i a).val < win6_3.index t a * S64x64.size a + S64x64.size a := by
  show i ∈ ((View.whole main_v91).slice (win6_3.rect t)).set ↔ _
  rw [View.set_slice_whole, Rect.mem_set_unit]
  exact Iff.rfl

/-- Every entry lies in the one block. -/
theorem cover6 (i : S64x64.Idx) : ∃ t : Fin cfg6.N, (cfg6.win 3).flush t = true ∧ i ∈ ((cfg6.win 3).blk t).view.set := by
  have hi0 : (i 0).val < 64 := (i 0).isLt
  have hi1 : (i 1).val < 64 := (i 1).isLt
  obtain ⟨t, ht⟩ := idx_onto6
  have q0 : win6_3.index t (0 : Fin 2) = 0 := congrFun ht 0
  have q1 : win6_3.index t (1 : Fin 2) = 0 := congrFun ht 1
  refine ⟨t, flush6_3 t, ?_⟩
  rw [mem_blk6]
  intro a
  match a with
  | ⟨0, _⟩ => show win6_3.index t (0 : Fin 2) * 64 ≤ (i 0).val ∧ (i 0).val < win6_3.index t (0 : Fin 2) * 64 + 64; omega
  | ⟨1, _⟩ => show win6_3.index t (1 : Fin 2) * 64 ≤ (i 1).val ∧ (i 1).val < win6_3.index t (1 : Fin 2) * 64 + 64; omega

/-- The array the region leaves is the layer's array computed from the arrays it found. -/
theorem final6 (c : Dev nD) : (dat6 V c).arrAt 3 cfg6.N = pooledRelu (V c main_v89) (V c main_arg10) (V c main_v90) :=
  (dat6 V c).arrAt_eq_of_cover 3 _ (fun t _ => flushed6 V c t) (cover6)

end Cert.KernelIdeal.Regions

end
-- ==== Proof.Region7.lean ====
/-
  Region 7: a pooled layer. The grid has one point, which stages the whole 64 × 64 input, the whole 64 × 64
  weights and the bias row, and writes back the whole 64 × 64 product plus bias. The one
  block is the whole array.
-/
import proofs.«173949_j61031485276242_1_alg».proof.Proof.Gen.KernelIdeal.Frame
import proofs.«173949_j61031485276242_1_alg».proof.Proof.Payloads
import proofs.«173949_j61031485276242_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Spec

theorem hz7 : (![0, 0] : Fin 2 → Nat) = fun _ => 0 := funext fun a => by fin_cases a <;> rfl

/-- The printed index maps at the one point: every block index is zero. -/
theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- There is a point. -/
theorem idx_onto7 : ∃ t : Fin cfg7.N, win7_3.index t = ![0, 0] :=
  (by decide +kernel : ∃ t : Fin grid7.N, win7_3.index t = ![0, 0])

set_option maxHeartbeats 1600000 in
/-- What the point writes back is the layer's array computed from the arrays as the region finds them. -/
theorem flushed7 (c : Dev nD) (t : Fin cfg7.N) :
    (dat7 V c).flushed 3 t = ((cfg7.win 3).blk t).view.read (Elt Ideal) (pooled (V c main_v91) (V c main_arg12) (V c main_v92)) := by
  show (cfg7.win 3).cut (grid7.coords t) ((dat7 V c).after 3 t) = _
  rw [after7_3]
  unfold out7_3
  rw [View.canon_unit_zero hz7]
  simp only [View.ld_unit_zero (S := S64x64) hz7, View.ld_unit_zero (S := S1x64) hz7]
  obtain ⟨e0, e1, e2, e3, e4, e5, e6, e7⟩ := idx_facts7 t
  funext j
  obtain ⟨p, q, rfl⟩ : ∃ (p : Fin 64) (q : Fin 64), j = ix2 p q := ⟨j 0, j 1, eq_ix2 j⟩
  refine (Payloads.pooled7_apply (iblk7 V c 0 t) (iblk7 V c 1 t) (iblk7 V c 2 t) p q).trans ?_
  show (∑ k : Fin 64, arr (S := S64x64) (V c main_v91) (((cfg7.win 0).blk t).view.emb (ix2 p k)) * arr (S := S64x64) (V c main_arg12) (((cfg7.win 1).blk t).view.emb (ix2 k q))) + arr (S := S1x64) (V c main_v92) (((cfg7.win 2).blk t).view.emb (ix2 (0 : Fin 1) q))
      = pooled (V c main_v91) (V c main_arg12) (V c main_v92) (((cfg7.win 3).blk t).view.emb (ix2 p q))
  have h0 : ∀ k : Fin 64, ((cfg7.win 0).blk t).view.emb (ix2 p k) = ix2 ((((cfg7.win 3).blk t).view.emb (ix2 p q)) 0) k := fun k => by
    funext a; apply Fin.ext
    match a with
    | ⟨0, _⟩ => show win7_0.index t (0 : Fin 2) * 64 + 1 * p.val = win7_3.index t (0 : Fin 2) * 64 + 1 * p.val; omega
    | ⟨1, _⟩ => show win7_0.index t (1 : Fin 2) * 64 + 1 * k.val = k.val; omega
  have h1 : ∀ k : Fin 64, ((cfg7.win 1).blk t).view.emb (ix2 k q) = ix2 k ((((cfg7.win 3).blk t).view.emb (ix2 p q)) 1) := fun k => by
    funext a; apply Fin.ext
    match a with
    | ⟨0, _⟩ => show win7_1.index t (0 : Fin 2) * 64 + 1 * k.val = k.val; omega
    | ⟨1, _⟩ => show win7_1.index t (1 : Fin 2) * 64 + 1 * q.val = win7_3.index t (1 : Fin 2) * 64 + 1 * q.val; omega
  have h2 : ((cfg7.win 2).blk t).view.emb (ix2 (0 : Fin 1) q) = ix2 (0 : Fin 1) ((((cfg7.win 3).blk t).view.emb (ix2 p q)) 1) := by
    funext a; apply Fin.ext
    match a with
    | ⟨0, _⟩ => show win7_2.index t (0 : Fin 2) * 1 + 1 * 0 = 0; omega
    | ⟨1, _⟩ => show win7_2.index t (1 : Fin 2) * 64 + 1 * q.val = win7_3.index t (1 : Fin 2) * 64 + 1 * q.val; omega
  have hs : (∑ k : Fin 64, arr (S := S64x64) (V c main_v91) (((cfg7.win 0).blk t).view.emb (ix2 p k)) * arr (S := S64x64) (V c main_arg12) (((cfg7.win 1).blk t).view.emb (ix2 k q)))
      = ∑ k : Fin 64, arr (S := S64x64) (V c main_v91) (ix2 ((((cfg7.win 3).blk t).view.emb (ix2 p q)) 0) k) * arr (S := S64x64) (V c main_arg12) (ix2 k ((((cfg7.win 3).blk t).view.emb (ix2 p q)) 1)) :=
    Finset.sum_congr rfl fun k _ => congrArg₂ (fun a b : EReal => a * b)
      (congrArg (arr (S := S64x64) (V c main_v91)) (h0 k)) (congrArg (arr (S := S64x64) (V c main_arg12)) (h1 k))
  exact congrArg₂ (fun s u : EReal => s + u) hs (congrArg (arr (S := S1x64) (V c main_v92)) h2)

/-- An index of the array is in the point's block iff each coordinate is in the block's range on its axis. -/
theorem mem_blk7 (t : Fin cfg7.N) (i : S64x64.Idx) :
    i ∈ ((cfg7.win 3).blk t).view.set ↔ ∀ a : Fin 2, win7_3.index t a * S64x64.size a ≤ (i a).val ∧ (i a).val < win7_3.index t a * S64x64.size a + S64x64.size a := by
  show i ∈ ((View.whole main_v93).slice (win7_3.rect t)).set ↔ _
  rw [View.set_slice_whole, Rect.mem_set_unit]
  exact Iff.rfl

/-- Every entry lies in the one block. -/
theorem cover7 (i : S64x64.Idx) : ∃ t : Fin cfg7.N, (cfg7.win 3).flush t = true ∧ i ∈ ((cfg7.win 3).blk t).view.set := by
  have hi0 : (i 0).val < 64 := (i 0).isLt
  have hi1 : (i 1).val < 64 := (i 1).isLt
  obtain ⟨t, ht⟩ := idx_onto7
  have q0 : win7_3.index t (0 : Fin 2) = 0 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 64 ≤ (i 0).val ∧ (i 0).val < win7_3.index t (0 : Fin 2) * 64 + 64; omega
  | ⟨1, _⟩ => show win7_3.index t (1 : Fin 2) * 64 ≤ (i 1).val ∧ (i 1).val < win7_3.index t (1 : Fin 2) * 64 + 64; omega

/-- The array the region leaves is the layer's array computed from the arrays it found. -/
theorem final7 (c : Dev nD) : (dat7 V c).arrAt 3 cfg7.N = pooled (V c main_v91) (V c main_arg12) (V c main_v92) :=
  (dat7 V c).arrAt_eq_of_cover 3 _ (fun t _ => flushed7 V c t) (cover7)

end Cert.KernelIdeal.Regions

end
-- ==== Proof.Pool.lean ====
/-
  The mean pool and the two pooled layers, read through the fold.

  After the third finishing region the host operations count the nodes of each graph, sum the node rows of each
  graph and divide by the count (at least one): the reference's operations on an array already shown equal. The
  two last regions are 64 × 64 products plus a bias row, the first cut below at zero; entry by entry they are
  the reference's `dot_general`, broadcasts, sum and maximum. The last region's output is @main's result.
-/
import proofs.«173949_j61031485276242_1_alg».proof.Proof.Layer3
import proofs.«173949_j61031485276242_1_alg».proof.Proof.Region6
import proofs.«173949_j61031485276242_1_alg».proof.Proof.Region7
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Stages

open Cert.KernelIdeal Cert.KernelIdeal.Gen Cert.KernelIdeal.Spec Cert.KernelIdeal.Fold
open Cert.ReferenceIdeal.Read
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

/-! ## The mean pool -/

theorem W10_arg3 : W10 m ρ c (Proc.devRef .tc main_arg3) = X3 m c :=
  (W10_of_ne m ρ c main_arg3 (by decide)).trans ((StableHlo.after_of_forall_not_mem (b := Proc.devRef .tc main_arg3) _ _ (by not_written hostOps5)).trans ((W8_of_ne m ρ c main_arg3 (by decide)).trans ((W7_of_ne m ρ c main_arg3 (by decide)).trans ((StableHlo.after_of_forall_not_mem (b := Proc.devRef .tc main_arg3) _ _ (by not_written hostOps3)).trans ((W5_of_ne m ρ c main_arg3 (by decide)).trans ((W4_of_ne m ρ c main_arg3 (by decide)).trans ((StableHlo.after_of_forall_not_mem (b := Proc.devRef .tc main_arg3) _ _ (by not_written hostOps1)).trans ((W2_of_ne m ρ c main_arg3 (by decide)).trans ((StableHlo.after_of_forall_not_mem (b := Proc.devRef .tc main_arg3) _ _ (by not_written hostOps0)).trans (rfl))))))))))

theorem W10_arg11 : W10 m ρ c (Proc.devRef .tc main_arg11) = X11 m c :=
  (W10_of_ne m ρ c main_arg11 (by decide)).trans ((StableHlo.after_of_forall_not_mem (b := Proc.devRef .tc main_arg11) _ _ (by not_written hostOps5)).trans ((W8_of_ne m ρ c main_arg11 (by decide)).trans ((W7_of_ne m ρ c main_arg11 (by decide)).trans ((StableHlo.after_of_forall_not_mem (b := Proc.devRef .tc main_arg11) _ _ (by not_written hostOps3)).trans ((W5_of_ne m ρ c main_arg11 (by decide)).trans ((W4_of_ne m ρ c main_arg11 (by decide)).trans ((StableHlo.after_of_forall_not_mem (b := Proc.devRef .tc main_arg11) _ _ (by not_written hostOps1)).trans ((W2_of_ne m ρ c main_arg11 (by decide)).trans ((StableHlo.after_of_forall_not_mem (b := Proc.devRef .tc main_arg11) _ _ (by not_written hostOps0)).trans (rfl))))))))))

set_option maxHeartbeats 2000000 in
/-- The per-graph mean of the node rows. -/
theorem W11_v89 : W11 m ρ c (Proc.devRef .tc main_v89) = val_main_v149 (F := Ideal) (X0 m c) (X1 m c) (X2 m c) (X3 m c) (X4 m c) (X5 m c) (X6 m c) (X7 m c) (X8 m c) (X9 m c) := by
  show StableHlo.after hostOps6 (W10 m ρ c) (Proc.devRef .tc main_v89) = _
  after_results_simp
  rw [W10_v77 m ρ c, W10_arg3 m ρ c]
  rfl

set_option maxHeartbeats 2000000 in
theorem W11_v90 : W11 m ρ c (Proc.devRef .tc main_v90) = shapeCast S1x64 (X11 m c) shapeCasts_S64_S1x64 := by
  show StableHlo.after hostOps6 (W10 m ρ c) (Proc.devRef .tc main_v90) = _
  after_results_simp
  rw [W10_arg11 m ρ c]
  rfl

theorem W11_arg10 : W11 m ρ c (Proc.devRef .tc main_arg10) = X10 m c :=
  (StableHlo.after_of_forall_not_mem (b := Proc.devRef .tc main_arg10) _ _ (by not_written hostOps6)).trans ((W10_of_ne m ρ c main_arg10 (by decide)).trans ((StableHlo.after_of_forall_not_mem (b := Proc.devRef .tc main_arg10) _ _ (by not_written hostOps5)).trans ((W8_of_ne m ρ c main_arg10 (by decide)).trans ((W7_of_ne m ρ c main_arg10 (by decide)).trans ((StableHlo.after_of_forall_not_mem (b := Proc.devRef .tc main_arg10) _ _ (by not_written hostOps3)).trans ((W5_of_ne m ρ c main_arg10 (by decide)).trans ((W4_of_ne m ρ c main_arg10 (by decide)).trans ((StableHlo.after_of_forall_not_mem (b := Proc.devRef .tc main_arg10) _ _ (by not_written hostOps1)).trans ((W2_of_ne m ρ c main_arg10 (by decide)).trans ((StableHlo.after_of_forall_not_mem (b := Proc.devRef .tc main_arg10) _ _ (by not_written hostOps0)).trans (rfl)))))))))))

/-! ## The first pooled layer -/

theorem W12_v91 : W12 m ρ c (Proc.devRef .tc main_v91) = val_main_v154 (F := Ideal) (X0 m c) (X1 m c) (X2 m c) (X3 m c) (X4 m c) (X5 m c) (X6 m c) (X7 m c) (X8 m c) (X9 m c) (X10 m c) (X11 m c) := by
  refine ((W12_arr m ρ c 3).trans (Regions.final6 (V11 m ρ) c)).trans ?_
  have e0 : V11 m ρ c main_v89 = val_main_v149 (F := Ideal) (X0 m c) (X1 m c) (X2 m c) (X3 m c) (X4 m c) (X5 m c) (X6 m c) (X7 m c) (X8 m c) (X9 m c) := W11_v89 m ρ c
  have e1 : V11 m ρ c main_arg10 = X10 m c := W11_arg10 m ρ c
  have e2 : V11 m ρ c main_v90 = shapeCast S1x64 (X11 m c) shapeCasts_S64_S1x64 := W11_v90 m ρ c
  rw [e0, e1, e2]
  funext i
  obtain ⟨p, q, rfl⟩ : ∃ (p : Fin 64) (q : Fin 64), i = ix2 p q := ⟨i 0, i 1, eq_ix2 i⟩
  rw [pooledRelu_apply, shapeCast_a_1a_apply (a := 64) _ _ (0 : Fin 1) q]
  rw [val_main_v154_apply, val_main_v153_apply, val_main_v150_apply, val_main_v152_apply, val_main_v151_apply, val_main_call2_v0_apply, val_main_call2_cst_apply]
  have hl : ∀ k : Fin 64, lidx_main_v150 (ix2 p q) k = ix2 p k := fun k => funext fun a => match a with | ⟨0, _⟩ => rfl | ⟨1, _⟩ => rfl
  have hr : ∀ k : Fin 64, ridx_main_v150 (ix2 p q) k = ix2 k q := fun k => funext fun a => match a with | ⟨0, _⟩ => rfl | ⟨1, _⟩ => rfl
  have i2 : idx_main_v151 (idx_main_v152 (ix2 p q)) = ix1 q := funext fun a => match a with | ⟨0, _⟩ => rfl
  simp only [hl, hr]
  rw [i2]
  rfl

/-! ## The second pooled layer: @main's result -/

theorem W12_arg13 : W12 m ρ c (Proc.devRef .tc main_arg13) = X13 m c :=
  (W12_of_ne m ρ c main_arg13 (by decide)).trans ((StableHlo.after_of_forall_not_mem (b := Proc.devRef .tc main_arg13) _ _ (by not_written hostOps6)).trans ((W10_of_ne m ρ c main_arg13 (by decide)).trans ((StableHlo.after_of_forall_not_mem (b := Proc.devRef .tc main_arg13) _ _ (by not_written hostOps5)).trans ((W8_of_ne m ρ c main_arg13 (by decide)).trans ((W7_of_ne m ρ c main_arg13 (by decide)).trans ((StableHlo.after_of_forall_not_mem (b := Proc.devRef .tc main_arg13) _ _ (by not_written hostOps3)).trans ((W5_of_ne m ρ c main_arg13 (by decide)).trans ((W4_of_ne m ρ c main_arg13 (by decide)).trans ((StableHlo.after_of_forall_not_mem (b := Proc.devRef .tc main_arg13) _ _ (by not_written hostOps1)).trans ((W2_of_ne m ρ c main_arg13 (by decide)).trans ((StableHlo.after_of_forall_not_mem (b := Proc.devRef .tc main_arg13) _ _ (by not_written hostOps0)).trans (rfl))))))))))))

set_option maxHeartbeats 2000000 in
theorem W13_v92 : W13 m ρ c (Proc.devRef .tc main_v92) = shapeCast S1x64 (X13 m c) shapeCasts_S64_S1x64 := by
  show StableHlo.after hostOps7 (W12 m ρ c) (Proc.devRef .tc main_v92) = _
  after_results_simp
  rw [W12_arg13 m ρ c]
  rfl

theorem W13_v91 : W13 m ρ c (Proc.devRef .tc main_v91) = val_main_v154 (F := Ideal) (X0 m c) (X1 m c) (X2 m c) (X3 m c) (X4 m c) (X5 m c) (X6 m c) (X7 m c) (X8 m c) (X9 m c) (X10 m c) (X11 m c) :=
  (StableHlo.after_of_forall_not_mem (b := Proc.devRef .tc main_v91) _ _ (by not_written hostOps7)).trans (W12_v91 m ρ c)

theorem W13_arg12 : W13 m ρ c (Proc.devRef .tc main_arg12) = X12 m c :=
  (StableHlo.after_of_forall_not_mem (b := Proc.devRef .tc main_arg12) _ _ (by not_written hostOps7)).trans ((W12_of_ne m ρ c main_arg12 (by decide)).trans ((StableHlo.after_of_forall_not_mem (b := Proc.devRef .tc main_arg12) _ _ (by not_written hostOps6)).trans ((W10_of_ne m ρ c main_arg12 (by decide)).trans ((StableHlo.after_of_forall_not_mem (b := Proc.devRef .tc main_arg12) _ _ (by not_written hostOps5)).trans ((W8_of_ne m ρ c main_arg12 (by decide)).trans ((W7_of_ne m ρ c main_arg12 (by decide)).trans ((StableHlo.after_of_forall_not_mem (b := Proc.devRef .tc main_arg12) _ _ (by not_written hostOps3)).trans ((W5_of_ne m ρ c main_arg12 (by decide)).trans ((W4_of_ne m ρ c main_arg12 (by decide)).trans ((StableHlo.after_of_forall_not_mem (b := Proc.devRef .tc main_arg12) _ _ (by not_written hostOps1)).trans ((W2_of_ne m ρ c main_arg12 (by decide)).trans ((StableHlo.after_of_forall_not_mem (b := Proc.devRef .tc main_arg12) _ _ (by not_written hostOps0)).trans (rfl)))))))))))))

/-- The result array at the last stage of the fold is the reference's result function of the launch arguments. -/
theorem W14_v93 : W14 m ρ c (Proc.devRef .tc main_v93) = val_main_v158 (F := Ideal) (X0 m c) (X1 m c) (X2 m c) (X3 m c) (X4 m c) (X5 m c) (X6 m c) (X7 m c) (X8 m c) (X9 m c) (X10 m c) (X11 m c) (X12 m c) (X13 m c) := by
  refine ((W14_arr m ρ c 3).trans (Regions.final7 (V13 m ρ) c)).trans ?_
  have e0 : V13 m ρ c main_v91 = val_main_v154 (F := Ideal) (X0 m c) (X1 m c) (X2 m c) (X3 m c) (X4 m c) (X5 m c) (X6 m c) (X7 m c) (X8 m c) (X9 m c) (X10 m c) (X11 m c) := W13_v91 m ρ c
  have e1 : V13 m ρ c main_arg12 = X12 m c := W13_arg12 m ρ c
  have e2 : V13 m ρ c main_v92 = shapeCast S1x64 (X13 m c) shapeCasts_S64_S1x64 := W13_v92 m ρ c
  rw [e0, e1, e2]
  funext i
  obtain ⟨p, q, rfl⟩ : ∃ (p : Fin 64) (q : Fin 64), i = ix2 p q := ⟨i 0, i 1, eq_ix2 i⟩
  rw [pooled_apply, shapeCast_a_1a_apply (a := 64) _ _ (0 : Fin 1) q]
  rw [val_main_v158_apply, val_main_v155_apply, val_main_v157_apply, val_main_v156_apply]
  have hl : ∀ k : Fin 64, lidx_main_v155 (ix2 p q) k = ix2 p k := fun k => funext fun a => match a with | ⟨0, _⟩ => rfl | ⟨1, _⟩ => rfl
  have hr : ∀ k : Fin 64, ridx_main_v155 (ix2 p q) k = ix2 k q := fun k => funext fun a => match a with | ⟨0, _⟩ => rfl | ⟨1, _⟩ => rfl
  have i2 : idx_main_v156 (idx_main_v157 (ix2 p q)) = ix1 q := funext fun a => match a with | ⟨0, _⟩ => rfl
  simp only [hl, hr]
  rw [i2]
  rfl

end Cert.KernelIdeal.Stages

end
-- ==== Proof.lean ====
/-
  A three-layer graph convolution with symmetric degree normalisation and self loops, a per-graph mean pool and a
  two-layer perceptron: the kernel program against its reference, over the extended reals.

  Both programs compute, from the edge list and the edge weights, the degree of every node plus one, its
  reciprocal square root d, and the normalised weight d[src] · w · d[dst] of every edge; then, three times,
  H ← (Σ over incoming edges of (H W)[src] · weight) + (H W) · d² + b (followed by the maximum with zero in the first
  two layers); then the mean of the node rows of every graph; then max(P W₁ + b₁, 0) W₂ + b₂. The reference does all
  of it on the host and recomputes the edge quantities in every layer; the kernel program computes them once and
  runs the dense pieces — the three projections H W in row blocks of 5000, the three finishing steps in the same
  blocks, the two 64 × 64 pooled layers whole — as eight kernel regions among the same host operations.

  The proof follows the kernel program's buffers through its fourteen segments (Proof/KernelRun.lean names the final
  memory as the last stage of that fold) and shows, segment by segment, that each buffer a later segment reads
  holds the reference's stage function of the launch arguments: a region's output by reading its blocks as one
  whole-array function (Proof/Region0 … Region7 over Proof/Payloads and Proof/Spec) and comparing entry by entry
  with the reference's `dot_general`, broadcasts, sums and maxima (a matrix-unit product into a zero accumulator and
  a `dot_general` are the same sum over k; a change of float format is the identity); a host stretch's output because it
  is the same operations on equal arrays (Proof/Edges, Layer1 … Layer3, Pool). No law of arithmetic beyond these
  identities is used, so the precondition is not opened. The idealisation rewrote nothing, so `preserves` is trivial;
  the three frames are the generated ones.
-/
import proofs.«173949_j61031485276242_1_alg».proof.Defs
import proofs.«173949_j61031485276242_1_alg».proof.Proof.Gen.Kernel
import proofs.«173949_j61031485276242_1_alg».proof.Proof.Gen.Kernel.Skeleton
import proofs.«173949_j61031485276242_1_alg».proof.Proof.Gen.Kernel.Launch
import proofs.«173949_j61031485276242_1_alg».proof.Proof.Gen.Kernel.Points
import proofs.«173949_j61031485276242_1_alg».proof.Proof.Gen.Kernel.Frame
import proofs.«173949_j61031485276242_1_alg».proof.Proof.Gen.KernelIdeal
import proofs.«173949_j61031485276242_1_alg».proof.Proof.Gen.KernelIdeal.Skeleton
import proofs.«173949_j61031485276242_1_alg».proof.Proof.Gen.KernelIdeal.Launch
import proofs.«173949_j61031485276242_1_alg».proof.Proof.Gen.KernelIdeal.Points
import proofs.«173949_j61031485276242_1_alg».proof.Proof.Gen.KernelIdeal.Frame
import proofs.«173949_j61031485276242_1_alg».proof.Proof.Gen.ReferenceIdeal
import proofs.«173949_j61031485276242_1_alg».proof.Proof.Gen.ReferenceIdeal.Run
import proofs.«173949_j61031485276242_1_alg».proof.Proof.Gen.ReferenceIdeal.Read
import proofs.«173949_j61031485276242_1_alg».proof.Proof.Gen.Pre_finite_inputs
import proofs.«173949_j61031485276242_1_alg».proof.Proof.KernelRun
import proofs.«173949_j61031485276242_1_alg».proof.Proof.Pool
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the reference's result function of the (agreeing) launch arguments: the kernel program's by
    the walk through its segments, the reference's by its run read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W14 m ρ c (Proc.devRef .tc Cert.KernelIdeal.main_v93),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v158_eq m' c, a0, a1, a2, a3, a4, a5, a6, a7, a8, a9, a10, a11, a12, a13]
  exact (Cert.KernelIdeal.Stages.W14_v93 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
